-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x24 : Shape := ⟨2, ![256, 24]⟩
abbrev S24 : Shape := ⟨1, ![24]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x24 : S_.BroadcastsInDim S256x24 (![] : Fin 0 → Fin S256x24.rank)
  reducesTo_S256x24_S_d0_1 : S256x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg5 : FVec F S24 .f32) (main_v13 : IVec S_ 1) (main_v16 : IVec S256x24 1) : IVec S_ 1 :=
  let main_c_5 : IVec S_ 1 := constantI S_ 1 1#1
  let main_v17 : IVec S_ 1 := (fun x v => Host.reduce IntOp.andi x v reducesTo_S256x24_S_d0_1 h_S_) main_v16 main_c_5
  let main_v18 : IVec S_ 1 := andi main_v13 main_v17
  let main_v19 : FVec F S24 .f32 := Host.absf main_arg5
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x256 .f32) (main_arg3 : FVec F S256 .f32) (main_arg4 : FVec F S256x24 .f32) (main_arg5 : FVec F S24 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x24 .f32 := Host.absf main_arg4
  let main_cst_4 : FVec F S_ .f32 := constant S_ .f32 0x7F800000#32
  let main_v15 : FVec F S256x24 .f32 := broadcastInDim S256x24 ![] bcast_S_S256x24 main_cst_4
  let main_v16 : IVec S256x24 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x24 : Shape := ⟨2, ![256, 24]⟩
abbrev S24 : Shape := ⟨1, ![24]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x256 : Shape := ⟨2, ![100000, 256]⟩
abbrev S4000x128 : Shape := ⟨2, ![4000, 128]⟩
abbrev S4000x256 : Shape := ⟨2, ![4000, 256]⟩
abbrev S1x256 : Shape := ⟨2, ![1, 256]⟩
abbrev S100000x24 : Shape := ⟨2, ![100000, 24]⟩
abbrev S4000x24 : Shape := ⟨2, ![4000, 24]⟩
abbrev S600000x24 : Shape := ⟨2, ![600000, 24]⟩
abbrev S1x24 : Shape := ⟨2, ![1, 24]⟩
abbrev S4000 : Shape := ⟨1, ![4000]⟩
abbrev S4000x1 : Shape := ⟨2, ![4000, 1]⟩

abbrev nBuf : Space → Nat
  | .hbm => 39
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x24, .f32⟩
  | .hbm, ⟨5, _⟩ => ⟨S24, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S100000x256, .f32⟩
  | .hbm, ⟨24, _⟩ => ⟨S100000x24, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x24, .f32⟩
  | .hbm, ⟨34, _⟩ => ⟨S_, .f32⟩
  | .hbm, ⟨35, _⟩ => ⟨S100000x24, .f32⟩
  | .hbm, ⟨36, _⟩ => ⟨S600000x1, .i32⟩
  | .hbm, ⟨37, _⟩ => ⟨S100000x24, .f32⟩
  | .hbm, ⟨38, _⟩ => ⟨S100000x24, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S256, .f32⟩
  | .local _ .vmem, ⟨6, _⟩ => ⟨S4000x256, .f32⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S256x24, .f32⟩
  | .local _ .vmem, ⟨11, _⟩ => ⟨S4000x24, .f32⟩
  | .local _ .vmem, ⟨12, _⟩ => ⟨S4000x24, .f32⟩
  | .local _ .vmem, ⟨13, _⟩ => ⟨S4000x24, .f32⟩
  | .local _ .vmem, ⟨14, _⟩ => ⟨S4000x24, .f32⟩
  | .local _ .vmem, ⟨15, _⟩ => ⟨S4000x24, .f32⟩
  | .local _ .vmem, ⟨16, _⟩ => ⟨S4000x24, .f32⟩
  | .local _ .vmem, ⟨17, _⟩ => ⟨S24, .f32⟩
  | .local _ .vmem, ⟨18, _⟩ => ⟨S4000x24, .f32⟩
  | .local _ .vmem, ⟨19, _⟩ => ⟨S4000x24, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x24 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x24 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S24 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x24 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x24_S256x24_0_0 : ∀ a, (![0, 0] : Fin 2 → Nat) a + S256x24.size a ≤ S256x24.size a
  h_S256x24 : 0 < S256x24.numel
  inb_S4000x24_S4000x24_0_0 : ∀ a, (![0, 0] : Fin 2 → Nat) a + S4000x24.size a ≤ S4000x24.size a
  h_S4000x24 : 0 < S4000x24.numel
  bcast_S_S100000x24 : S_.BroadcastsInDim S100000x24 (![] : Fin 0 → Fin S100000x24.rank)
  shapeCasts_S4000x24_S4000x24 : S4000x24.ShapeCasts S4000x24
  inb_S24_S24_0 : ∀ a, (![0] : Fin 1 → Nat) a + S24.size a ≤ S24.size a
  h_S24 : 0 < S24.numel
  shapeCasts_S24_S1x24 : S24.ShapeCasts S1x24
  broadcasts_S1x24_S4000x24 : S1x24.Broadcasts S4000x24
  reduces_S4000x24_S4000 : S4000x24.Reduces [1] S4000
  shapeCasts_S4000_S4000x1 : S4000.ShapeCasts S4000x1
  broadcasts_S4000x1_S4000x24 : S4000x1.Broadcasts S4000x24
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x256_S4000x256_1_0_0_1_n_n_wf : DotDims.WF S4000x128 S128x256 S4000x256 [1] [0] [0] [1] [] []
  dot_S4000x256_S256x24_S4000x24_1_0_0_1_n_n_wf : DotDims.WF S4000x256 S256x24 S4000x24 [1] [0] [0] [1] [] []
  gather_S100000x24_S600000x1_S600000x24_1_0_n_n_0_1_124_wf : GatherDims.WF S100000x24 S600000x1 S600000x24 [1] [0] [] [0] [] 1 ![1, 24]
  scatter_S100000x24_S600000x1_S600000x24_1_0_0_1_wf : ScatterDims.WF S100000x24 S600000x1 S600000x24 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x256.size a ≤ S100000x256.size a
  hwx0_4 : ∀ i : grid0.Coords, EltTy.bits .f32 = 32 ∨ (Rect.block (s := S100000x256) S4000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x24.size a ≤ S256x24.size a
  hwx1_1 : ∀ i : grid1.Coords, EltTy.bits .f32 = 32 ∨ (Rect.block (s := S256x24) S256x24.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x24.size a ≤ S100000x24.size a
  hwx1_2 : ∀ i : grid1.Coords, EltTy.bits .f32 = 32 ∨ (Rect.block (s := S100000x24) S4000x24.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x24.size a ≤ S100000x24.size a
  hwx2_0 : ∀ i : grid2.Coords, EltTy.bits .f32 = 32 ∨ (Rect.block (s := S100000x24) S4000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x24.size a ≤ S100000x24.size a
  hwx2_1 : ∀ i : grid2.Coords, EltTy.bits .f32 = 32 ∨ (Rect.block (s := S100000x24) S4000x24.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S24.size a ≤ S24.size a
  hwx2_2 : ∀ i : grid2.Coords, EltTy.bits .f32 = 32 ∨ (Rect.block (s := S24) S24.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x24.size a ≤ S100000x24.size a
  hwx2_3 : ∀ i : grid2.Coords, EltTy.bits .f32 = 32 ∨ (Rect.block (s := S100000x24) S4000x24.size (cc2_transform_3 i) (hinb2_3 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x24_S4000x24_1_0_0_1_n_n : DotDims S4000x256 S256x24 S4000x24 where
  lhsContracting := [1]
  rhsContracting := [0]
  lhsNonContracting := [0]
  rhsNonContracting := [1]
  lhsBatch := []
  rhsBatch := []
  wf := dot_S4000x256_S256x24_S4000x24_1_0_0_1_n_n_wf
def gather_S100000x24_S600000x1_S600000x24_1_0_n_n_0_1_124 : GatherDims S100000x24 S600000x1 S600000x24 where
  offsetDims := [1]
  collapsedSliceDims := [0]
  operandBatchingDims := []
  startIndicesBatchingDims := []
  startIndexMap := [0]
  indexVectorDim := 1
  sliceSizes := ![1, 24]
  wf := gather_S100000x24_S600000x1_S600000x24_1_0_n_n_0_1_124_wf
def scatter_S100000x24_S600000x1_S600000x24_1_0_0_1 : ScatterDims S100000x24 S600000x1 S600000x24 where
  updateWindowDims := [1]
  insertedWindowDims := [0]
  scatterDimsToOperandDims := [0]
  indexVectorDim := 1
  wf := scatter_S100000x24_S600000x1_S600000x24_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x24.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x24.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S4000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x24.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S24.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S4000x24.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x24 : Shape := ⟨2, ![256, 24]⟩
abbrev S24 : Shape := ⟨1, ![24]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x256 : Shape := ⟨2, ![100000, 256]⟩
abbrev S1x256 : Shape := ⟨2, ![1, 256]⟩
abbrev S600000x256 : Shape := ⟨2, ![600000, 256]⟩
abbrev S100000x24 : Shape := ⟨2, ![100000, 24]⟩
abbrev S1x24 : Shape := ⟨2, ![1, 24]⟩
abbrev S100000 : Shape := ⟨1, ![100000]⟩
abbrev S100000x1 : Shape := ⟨2, ![100000, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x24, .f32⟩
  | .hbm, ⟨5, _⟩ => ⟨S24, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x256, .f32⟩
  | .hbm, ⟨28, _⟩ => ⟨S1x256, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x256, .f32⟩
  | .hbm, ⟨43, _⟩ => ⟨S_, .f32⟩
  | .hbm, ⟨44, _⟩ => ⟨S100000x256, .f32⟩
  | .hbm, ⟨45, _⟩ => ⟨S600000x1, .i32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S100000x256, .f32⟩
  | .hbm, ⟨51, _⟩ => ⟨S100000x24, .f32⟩
  | .hbm, ⟨52, _⟩ => ⟨S1x24, .f32⟩
  | .hbm, ⟨53, _⟩ => ⟨S100000x24, .f32⟩
  | .hbm, ⟨54, _⟩ => ⟨S100000x24, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x24, .f32⟩
  | .hbm, ⟨62, _⟩ => ⟨S100000x24, .f32⟩
  | .hbm, ⟨63, _⟩ => ⟨S100000x24, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S100000x1, .f32⟩
  | .hbm, ⟨68, _⟩ => ⟨S100000x24, .f32⟩
  | .hbm, ⟨69, _⟩ => ⟨S100000x24, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_call1_cst_0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_cst_1 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_v39 : Ref sig .tc := ⟨.hbm, 69, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  reducesTo_S100000x24_S100000_d1 : S100000x24.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x24_0_1 : S100000x1.BroadcastsInDim S100000x24 (![0, 1] : Fin 2 → Fin S100000x24.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x24_S100000x24_1_0_0_1_n_n_wf : DotDims.WF S100000x256 S256x24 S100000x24 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x24_S100000x24_1_0_0_1_n_n : DotDims S100000x256 S256x24 S100000x24 where
  lhsContracting := [1]
  rhsContracting := [0]
  lhsNonContracting := [0]
  rhsNonContracting := [1]
  lhsBatch := []
  rhsBatch := []
  wf := dot_S100000x256_S256x24_S100000x24_1_0_0_1_n_n_wf

class Facts : Prop extends Facts₀ where

variable [Facts]
-- ==== Proof.KRun.lean ====
/-
  The idealized kernel's run with its result named. Every weakly fair execution of the program ends, nothing
  faulting, with the result array holding what the last region's write-backs leave (the contents W5 at the result's
  buffer) and every argument array as it was at launch.
-/
import proofs.«179152_j84645215470228_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments of the program launched from the memory m; the last thread state is read against the
    final state, the result at the last boundary's contents, each argument back to its launch contents. -/
theorem run_main : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KRun

end
-- ==== Proof.LibGatherRows.lean ====
/-
  A gather of whole rows, read at an index. For a table x : [N, D] and one row number per result row,
  idx : [R, 1], the gather with one offset axis (the result's axis 1), the table's axis 0 collapsed and named by
  the start index, and slices [1, D], produces the [R, D] array whose row t is the table's row idx[t, 0]: the
  start index is read as a signed integer and clamped into [0, N − 1], and the column is the result's own column.
  The same with one more batch axis: idx : [R, A, 1] and result [R, A, D], row (t, a) being the table's row
  idx[t, a, 0].
-/
import Idealize.ShloMosaic.Lib.ValueIdx

noncomputable section

namespace Idealize.ShloMosaic.ValueIdx

open Idealize.ShloMosaic

section Rows
variable {α : Type}

/-- The dimension numbers of a row gather: operand [N, D], start indices [R, 1], result [R, D]. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index [t, 0] of result index (t, j). -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather at (t, j): the table at row idx[t, 0] (signed, clamped into [0, N − 1]) and column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N D R wf) x idx y
      = x (ix2 ⟨min (idx (rowsIdx y)).toInt.toNat (N - 1), by omega⟩ ⟨(y 1).val, idx2_lt1 y⟩) := by
  unfold Host.gather
  congr 1
  funext a
  refine Fin.ext ?_
  show (rowsDims N D R wf).start y idx a + (rowsDims N D R wf).batchCoord y a + (rowsDims N D R wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D R wf).startIndexMap from List.mem_singleton.mpr rfl)]
    have hsi : (rowsDims N D R wf).siIdx y ⟨List.idxOf (⟨0, by decide⟩ : Fin 2) (rowsDims N D R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N D R wf).startIndexMap from
      fun h => absurd (congrArg Fin.val (List.mem_singleton.mp h)) Nat.one_ne_zero)]
    simp only [Nat.zero_add]
    rfl

end Rows

section Rows3
variable {α : Type}

/-- The dimension numbers of a row gather with two batch axes: operand [N, D], start indices [R, A, 1], result
    [R, A, D]. -/
abbrev rows3Dims (N D R A : Nat) (wf : GatherDims.WF ⟨2, ![N, D]⟩ ⟨3, ![R, A, 1]⟩ ⟨3, ![R, A, D]⟩ [2] [0] [] [0] [] 2 ![1, D]) :
    GatherDims ⟨2, ![N, D]⟩ ⟨3, ![R, A, 1]⟩ ⟨3, ![R, A, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index [t, a, 0] of result index (t, a, j). -/
abbrev rows3Idx {R A D : Nat} (y : (⟨3, ![R, A, D]⟩ : Shape).Idx) : (⟨3, ![R, A, 1]⟩ : Shape).Idx :=
  fun b => match b with | ⟨0, _⟩ => ⟨(y 0).val, idx3_lt0 y⟩ | ⟨1, _⟩ => ⟨(y 1).val, idx3_lt1 y⟩ | ⟨2, _⟩ => ⟨0, Nat.one_pos⟩

/-- The row gather at (t, a, j): the table at row idx[t, a, 0] (signed, clamped into [0, N − 1]) and column j. -/
theorem gather_rows3_apply {N D R A w : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ w) (y : (⟨3, ![R, A, D]⟩ : Shape).Idx) :
    Host.gather (rows3Dims N D R A wf) x idx y
      = x (ix2 ⟨min (idx (rows3Idx y)).toInt.toNat (N - 1), by omega⟩ ⟨(y 2).val, idx3_lt2 y⟩) := by
  unfold Host.gather
  congr 1
  funext a
  refine Fin.ext ?_
  show (rows3Dims N D R A wf).start y idx a + (rows3Dims N D R A wf).batchCoord y a + (rows3Dims N D R A wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D R A wf).startIndexMap from List.mem_singleton.mpr rfl)]
    have hsi : (rows3Dims N D R A wf).siIdx y ⟨List.idxOf (⟨0, by decide⟩ : Fin 2) (rows3Dims N D R A wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ (rows3Dims N D R A wf).startIndexMap from
      fun h => absurd (congrArg Fin.val (List.mem_singleton.mp h)) Nat.one_ne_zero)]
    simp only [Nat.zero_add]
    rfl

end Rows3

/-! ## Looking a row up by a signed word in range

jnp's indexing first wraps a negative index by the table's height, select (i < 0) (i + n) i: for an index that is
not negative this is the index itself. The gather then clamps the start index, read as a signed integer, into
[0, N − 1]: for a word w with 0 ≤ w (signed) and w < N the clamped start is w itself. -/

/-- A signed word that is not negative is not below zero in the signed order. -/
theorem cmpi_slt_zero_of_nonneg (w : BitVec 32) (h : 0 ≤ w.toInt) : IntOp.cmpi .slt w (0#32) = 0#1 := by
  unfold IntOp.cmpi
  have : w.slt (0#32) = false := by
    simp only [BitVec.slt, BitVec.toInt_zero, decide_eq_false_iff_not, not_lt]
    exact h
  simp [this]

/-- The negative-index wrap leaves a non-negative index alone. -/
theorem wrap_of_nonneg {α : Type} (w : BitVec 32) (h : 0 ≤ w.toInt) (a b : α) :
    Scalar.select (IntOp.cmpi .slt w (0#32)) a b = b := by
  rw [cmpi_slt_zero_of_nonneg w h]; exact select_zero a b

/-- For a signed word in [0, N) the clamp of a gather's start index is the word's own value. -/
theorem clamp_of_range (w : BitVec 32) (N : Nat) (h0 : 0 ≤ w.toInt) (hlt : w.toNat < N) :
    min w.toInt.toNat (N - 1) = w.toNat := by
  have e : w.toInt.toNat = w.toNat := by
    have := BitVec.toInt_eq_toNat_cond w
    split at this <;> omega
  rw [e]; omega

section
variable {α : Type}

/-- A row gather whose start index at row t is a signed word in [0, N) reads that row of the table. -/
theorem gather_rows_of_word {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (y : (⟨2, ![R, D]⟩ : Shape).Idx)
    (w : BitVec 32) (hw : idx (rowsIdx y) = w) (h0 : 0 ≤ w.toInt) (hlt : w.toNat < N) :
    Host.gather (rowsDims N D R wf) x idx y = x (ix2 ⟨w.toNat, hlt⟩ ⟨(y 1).val, idx2_lt1 y⟩) := by
  rw [gather_rows_apply hN wf x idx y]
  refine congrArg x ?_
  refine congrArg (fun r => ix2 r (⟨(y 1).val, idx2_lt1 y⟩ : Fin D)) (Fin.ext ?_)
  show min (idx (rowsIdx y)).toInt.toNat (N - 1) = w.toNat
  rw [hw]; exact clamp_of_range w N h0 hlt

/-- The same with two batch axes. -/
theorem gather_rows3_of_word {N D R A : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ 32) (y : (⟨3, ![R, A, D]⟩ : Shape).Idx)
    (w : BitVec 32) (hw : idx (rows3Idx y) = w) (h0 : 0 ≤ w.toInt) (hlt : w.toNat < N) :
    Host.gather (rows3Dims N D R A wf) x idx y = x (ix2 ⟨w.toNat, hlt⟩ ⟨(y 2).val, idx3_lt2 y⟩) := by
  rw [gather_rows3_apply hN wf x idx y]
  refine congrArg x ?_
  refine congrArg (fun r => ix2 r (⟨(y 2).val, idx3_lt2 y⟩ : Fin D)) (Fin.ext ?_)
  show min (idx (rows3Idx y)).toInt.toNat (N - 1) = w.toNat
  rw [hw]; exact clamp_of_range w N h0 hlt

end

end Idealize.ShloMosaic.ValueIdx

end
-- ==== Proof.LibScatterDims.lean ====
/-
  The dimension numbers of an accumulating scatter of whole rows: operand [N, D], one destination row number per
  update row, indices [R, 1], updates [R, D]. The updates' axis 1 is the window axis and goes to the operand's axis 1;
  the operand's axis 0 is named by the scatter index. Update row e is added into operand row idx[e, 0], read as a
  signed integer, and dropped when that row is outside [0, N).
-/
import Idealize.ShloMosaic.PureOps.Dims

namespace Idealize.ShloMosaic.ValueIdx

open Idealize.ShloMosaic

/-- Those dimension numbers; their conditions `wf` are decided on a program's literal shapes. -/
abbrev rowsScatterDims (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

end Idealize.ShloMosaic.ValueIdx
-- ==== Proof.GinSpec.lean ====
/-
  The two-layer graph network, as functions of real or extended-real arrays, one entry at a time.

  Nodes n < 100000 carry 128 features; an edge list gives, per edge, a source row and a destination row. The
  neighbourhood sum of an array X is the array whose row n is the sum of the rows X[src e] over the edges e whose
  destination is n. Layer one is h = max((x·1 + agg x)·W1 + b1, 0). Layer two's scores are, in one arrangement,
  (h·1 + agg h)·W2 + b2 and, in the other, h·W2 + agg (h·W2) + b2: equal for real entries, since a neighbourhood sum
  commutes with a product on the right. The result is the row-wise log-softmax of the scores:
  s − m − log Σ exp(s − m), with m the row's largest score.
-/
import Idealize.ShloMosaic.PureOps.Ideal
import Idealize.ShloMosaic.PureOps.Ideal.Laws
import Idealize.ShloMosaic.Lib.ValueIdx
import proofs.«179152_j84645215470228_2_alg».proof.Proof.LibGatherRows
import proofs.«179152_j84645215470228_2_alg».proof.Proof.LibScatterDims

noncomputable section

namespace Cert.Gin

open Idealize.ShloMosaic Idealize.ShloMosaic.ValueIdx

/-- A two-axis array of extended reals. -/
abbrev Arr (n0 n1 : Nat) : Type := (⟨2, ![n0, n1]⟩ : Shape).Idx → EReal
/-- A one-axis array of extended reals. -/
abbrev Vc (n : Nat) : Type := (⟨1, ![n]⟩ : Shape).Idx → EReal
/-- One 32-bit row number per edge, as a column. -/
abbrev Rows : Type := IVec ⟨2, ![600000, 1]⟩ 32

/-- The array with entry f n j at (n, j). -/
def arr2 {n0 n1 : Nat} (f : Fin n0 → Fin n1 → EReal) : Arr n0 n1 := fun i => f (i 0) (i 1)

theorem arr2_apply {n0 n1 : Nat} (f : Fin n0 → Fin n1 → EReal) (p : Fin n0) (q : Fin n1) : arr2 f (ix2 p q) = f p q := rfl

/-- The 32-bit float words of 1, 0 and −∞, read as extended reals. -/
abbrev one32 : EReal := Ideal.ofBits .f32 0x3F800000#32
abbrev zero32 : EReal := Ideal.ofBits .f32 0x00000000#32
abbrev ninf32 : EReal := Ideal.ofBits .f32 0xFF800000#32

/-- The neighbourhood sum of X : [100000, D]: the zero array, plus at (n, j) the sum over the edges e whose
    destination row is n of X at (source row of e, j) — the accumulating scatter of the gathered rows. -/
def agg (D : Nat)
    (wfg : GatherDims.WF ⟨2, ![100000, D]⟩ ⟨2, ![600000, 1]⟩ ⟨2, ![600000, D]⟩ [1] [0] [] [0] [] 1 ![1, D])
    (wfs : ScatterDims.WF ⟨2, ![100000, D]⟩ ⟨2, ![600000, 1]⟩ ⟨2, ![600000, D]⟩ [1] [0] [0] 1)
    (X : Arr 100000 D) (src dst : Rows) : Arr 100000 D :=
  Ideal.hostScatterAdd (rowsScatterDims 100000 D 600000 wfs) (fun _ => zero32) dst
    (Host.gather (rowsDims 100000 D 600000 wfg) X src)

/-- Layer one at node n, hidden unit c. -/
def hidden (x a : Arr 100000 128) (W1 : Arr 128 256) (b1 : Vc 256) (n : Fin 100000) (c : Fin 256) : EReal :=
  max ((∑ k : Fin 128, (x (ix2 n k) * one32 + a (ix2 n k)) * W1 (ix2 k c)) + b1 (ix1 c)) zero32

/-- The projection h·W2 at node n, class j. -/
def proj (h : Arr 100000 256) (W2 : Arr 256 24) (n : Fin 100000) (j : Fin 24) : EReal :=
  ∑ k : Fin 256, h (ix2 n k) * W2 (ix2 k j)

/-- The scores, projected first: y + (neighbourhood sum of y) + b2. -/
def scoreK (y ay : Arr 100000 24) (b2 : Vc 24) (n : Fin 100000) (j : Fin 24) : EReal :=
  (y (ix2 n j) + ay (ix2 n j)) + b2 (ix1 j)

/-- The scores, aggregated first: (1·h + neighbourhood sum of h)·W2 + b2. -/
def scoreR (h ah : Arr 100000 256) (W2 : Arr 256 24) (b2 : Vc 24) (n : Fin 100000) (j : Fin 24) : EReal :=
  (∑ k : Fin 256, (one32 * h (ix2 n k) + ah (ix2 n k)) * W2 (ix2 k j)) + b2 (ix1 j)

/-- The largest of a row's 24 scores (from −∞). -/
def rowMax (s : Fin 24 → EReal) : EReal := (Finset.univ : Finset (Fin 24)).fold max ninf32 s

/-- Log-softmax of a row of 24 scores at class j. -/
def lsm (s : Fin 24 → EReal) (j : Fin 24) : EReal :=
  (s j - rowMax s) - Ideal.log (∑ k : Fin 24, Ideal.exp (s k - rowMax s))

end Cert.Gin

end
-- ==== Proof.KValue.lean ====
/-
  The idealized kernel's result array as a function of its six arguments. The program is three regions among two
  stretches of host operations. The first stretch computes the edge rows and the features' neighbourhood sum; region
  0 computes layer one; region 1 the projection by W2; the second stretch the projection's neighbourhood sum; region
  2 the row-wise log-softmax. Each boundary's contents are read off the one before: a buffer no operation writes keeps
  its contents, a host operation's result is its function of its operands, a region's output is its whole-array
  function of the arrays it finds.
-/
import proofs.«179152_j84645215470228_2_alg».proof.Proof.Gen.KernelIdeal.Frame
import proofs.«179152_j84645215470228_2_alg».proof.Proof.GinSpec
import Idealize.ShloMosaic.Lib.StableHlo.Run

set_option maxRecDepth 16384

noncomputable section

namespace Cert.KernelIdeal.KValue

open Cert.KernelIdeal Cert.KernelIdeal.Gen Cert.Gin
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The edge list's row 0 and row 1, each as a flat array of 600000 row numbers. -/
def flat0 (ei : IVec S2x600000 32) : IVec S600000 32 :=
  shapeCast S600000 (extractStridedSlice S1x600000 ![0, 0] ei slices_S2x600000_S1x600000_0_0) shapeCasts_S1x600000_S600000
def flat1 (ei : IVec S2x600000 32) : IVec S600000 32 :=
  shapeCast S600000 (extractStridedSlice S1x600000 ![1, 0] ei slices_S2x600000_S1x600000_1_0) shapeCasts_S1x600000_S600000

/-- The source rows: a negative row number wrapped by the table's height, as a column. -/
def srcRows (ei : IVec S2x600000 32) : Rows :=
  broadcastInDim S600000x1 ![0] bcast_S600000_S600000x1_0
    (select (cmpi .slt (flat0 ei) (broadcastInDim S600000 ![] bcast_S_S600000 (constantI S_ 32 0#32)))
      (addi (flat0 ei) (broadcastInDim S600000 ![] bcast_S_S600000 (constantI S_ 32 100000#32))) (flat0 ei))

/-- The destination rows, as a column. -/
def dstRows (ei : IVec S2x600000 32) : Rows :=
  broadcastInDim S600000x1 ![0] bcast_S600000_S600000x1_0 (flat1 ei)

/-- The program's result as a function of its six arguments: layer one from the features and their neighbourhood sum;
    the projection by W2; the neighbourhood sum of the projection; the row-wise log-softmax of their sum plus b2. -/
def outK (x : Arr 100000 128) (ei : IVec S2x600000 32) (W1 : Arr 128 256) (b1 : Vc 256) (W2 : Arr 256 24) (b2 : Vc 24) : Arr 100000 24 :=
  let H : Arr 100000 256 := arr2 (hidden x (agg 128 gather_S100000x128_S600000x1_S600000x128_1_0_n_n_0_1_1128_wf
    scatter_S100000x128_S600000x1_S600000x128_1_0_0_1_wf x (srcRows ei) (dstRows ei)) W1 b1)
  let Y : Arr 100000 24 := arr2 (proj H W2)
  arr2 (fun n j => lsm (scoreK Y (agg 24 gather_S100000x24_S600000x1_S600000x24_1_0_n_n_0_1_124_wf
    scatter_S100000x24_S600000x1_S600000x24_1_0_0_1_wf Y (srcRows ei) (dstRows ei)) b2 n) j)

/-! ## The contents at region 0's entry: the arguments as launched, the edge rows, the features' neighbourhood sum -/

theorem W1_arg0 : W1 m ρ c (Proc.devRef .tc main_arg0) = m ((c : Thread nD τ).loc main_arg0) := by after_results
theorem W1_arg2 : W1 m ρ c (Proc.devRef .tc main_arg2) = m ((c : Thread nD τ).loc main_arg2) := by after_results
theorem W1_arg3 : W1 m ρ c (Proc.devRef .tc main_arg3) = m ((c : Thread nD τ).loc main_arg3) := by after_results
theorem W1_arg4 : W1 m ρ c (Proc.devRef .tc main_arg4) = m ((c : Thread nD τ).loc main_arg4) := by after_results
theorem W1_arg5 : W1 m ρ c (Proc.devRef .tc main_arg5) = m ((c : Thread nD τ).loc main_arg5) := by after_results

theorem W1_v1 : (W1 m ρ c (Proc.devRef .tc main_v1) : IVec S600000 32) = flat0 (m ((c : Thread nD τ).loc main_arg1)) := by
  after_results; rfl

theorem W1_v3 : (W1 m ρ c (Proc.devRef .tc main_v3) : IVec S600000 32) = flat1 (m ((c : Thread nD τ).loc main_arg1)) := by
  after_results; rfl

theorem W1_v13 : (W1 m ρ c (Proc.devRef .tc main_v13) : Arr 100000 128)
    = agg 128 gather_S100000x128_S600000x1_S600000x128_1_0_n_n_0_1_1128_wf scatter_S100000x128_S600000x1_S600000x128_1_0_0_1_wf
        (m ((c : Thread nD τ).loc main_arg0)) (srcRows (m ((c : Thread nD τ).loc main_arg1))) (dstRows (m ((c : Thread nD τ).loc main_arg1))) := by
  after_results; rfl

/-! ## Through regions 0 and 1: what each leaves in its output, every other buffer untouched -/

theorem W3_v1 : (W3 m ρ c (Proc.devRef .tc main_v1) : IVec S600000 32) = flat0 (m ((c : Thread nD τ).loc main_arg1)) :=
  (W3_of_ne m ρ c main_v1 (by decide)).trans ((W2_of_ne m ρ c main_v1 (by decide)).trans (W1_v1 m ρ c))
theorem W3_v3 : (W3 m ρ c (Proc.devRef .tc main_v3) : IVec S600000 32) = flat1 (m ((c : Thread nD τ).loc main_arg1)) :=
  (W3_of_ne m ρ c main_v3 (by decide)).trans ((W2_of_ne m ρ c main_v3 (by decide)).trans (W1_v3 m ρ c))
theorem W3_arg5 : W3 m ρ c (Proc.devRef .tc main_arg5) = m ((c : Thread nD τ).loc main_arg5) :=
  (W3_of_ne m ρ c main_arg5 (by decide)).trans ((W2_of_ne m ρ c main_arg5 (by decide)).trans (W1_arg5 m ρ c))
theorem W2_arg4 : W2 m ρ c (Proc.devRef .tc main_arg4) = m ((c : Thread nD τ).loc main_arg4) :=
  (W2_of_ne m ρ c main_arg4 (by decide)).trans (W1_arg4 m ρ c)

/-! ## Through the second host stretch: the projection untouched, its neighbourhood sum computed -/

theorem W4_v15 : W4 m ρ c (Proc.devRef .tc main_v15) = W3 m ρ c (Proc.devRef .tc main_v15) := by after_results
theorem W4_arg5 : W4 m ρ c (Proc.devRef .tc main_arg5) = m ((c : Thread nD τ).loc main_arg5) := by
  after_results; exact W3_arg5 m ρ c

theorem W4_v25 : (W4 m ρ c (Proc.devRef .tc main_v25) : Arr 100000 24)
    = agg 24 gather_S100000x24_S600000x1_S600000x24_1_0_n_n_0_1_124_wf scatter_S100000x24_S600000x1_S600000x24_1_0_0_1_wf
        (W3 m ρ c (Proc.devRef .tc main_v15)) (srcRows (m ((c : Thread nD τ).loc main_arg1))) (dstRows (m ((c : Thread nD τ).loc main_arg1))) := by
  after_results
  rw [W3_v1, W3_v3]
  rfl

/-! ## The result -/

/-- Given each region's output as a whole-array function of the arrays it finds, the program's result array is
    outK of the six arguments. -/
theorem kvalue
    (h0 : ∀ (V : (c : Dev nD) → (b : Ref sig .tc) → Buf (Elt Ideal) ((c : Thread nD τ).loc b)) (c : Dev nD),
      ((dat0 (F := Ideal) V c).arrAt 4 cfg0.N : Arr 100000 256)
        = arr2 (hidden (V c (Pipeline.arrRef spec0 0)) (V c (Pipeline.arrRef spec0 1)) (V c (Pipeline.arrRef spec0 2)) (V c (Pipeline.arrRef spec0 3))))
    (h1 : ∀ (V : (c : Dev nD) → (b : Ref sig .tc) → Buf (Elt Ideal) ((c : Thread nD τ).loc b)) (c : Dev nD),
      ((dat1 (F := Ideal) V c).arrAt 2 cfg1.N : Arr 100000 24) = arr2 (proj (V c (Pipeline.arrRef spec1 0)) (V c (Pipeline.arrRef spec1 1))))
    (h2 : ∀ (V : (c : Dev nD) → (b : Ref sig .tc) → Buf (Elt Ideal) ((c : Thread nD τ).loc b)) (c : Dev nD),
      ((dat2 (F := Ideal) V c).arrAt 3 cfg2.N : Arr 100000 24)
        = arr2 (fun n j => lsm (scoreK (V c (Pipeline.arrRef spec2 0)) (V c (Pipeline.arrRef spec2 1)) (V c (Pipeline.arrRef spec2 2)) n) j)) :
    (W5 m ρ c (Proc.devRef .tc main_v26) : Arr 100000 24)
      = outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e2 : (W2 m ρ c (Proc.devRef .tc main_v14) : Arr 100000 256)
      = arr2 (hidden (m ((c : Thread nD τ).loc main_arg0))
          (agg 128 gather_S100000x128_S600000x1_S600000x128_1_0_n_n_0_1_1128_wf scatter_S100000x128_S600000x1_S600000x128_1_0_0_1_wf
            (m ((c : Thread nD τ).loc main_arg0)) (srcRows (m ((c : Thread nD τ).loc main_arg1))) (dstRows (m ((c : Thread nD τ).loc main_arg1))))
          (m ((c : Thread nD τ).loc main_arg2)) (m ((c : Thread nD τ).loc main_arg3))) := by
    refine ((W2_arr m ρ c 4).trans (h0 (V1 m ρ) c)).trans ?_
    show arr2 (hidden (W1 m ρ c (Proc.devRef .tc main_arg0)) (W1 m ρ c (Proc.devRef .tc main_v13))
      (W1 m ρ c (Proc.devRef .tc main_arg2)) (W1 m ρ c (Proc.devRef .tc main_arg3))) = _
    rw [W1_arg0, W1_v13, W1_arg2, W1_arg3]
  have e3 : (W3 m ρ c (Proc.devRef .tc main_v15) : Arr 100000 24)
      = arr2 (proj (W2 m ρ c (Proc.devRef .tc main_v14)) (m ((c : Thread nD τ).loc main_arg4))) := by
    refine ((W3_arr m ρ c 2).trans (h1 (V2 m ρ) c)).trans ?_
    show arr2 (proj (W2 m ρ c (Proc.devRef .tc main_v14)) (W2 m ρ c (Proc.devRef .tc main_arg4))) = _
    rw [W2_arg4]
  refine ((W5_arr m ρ c 3).trans (h2 (V4 m ρ) c)).trans ?_
  show arr2 (fun n j => lsm (scoreK (W4 m ρ c (Proc.devRef .tc main_v15)) (W4 m ρ c (Proc.devRef .tc main_v25))
    (W4 m ρ c (Proc.devRef .tc main_arg5)) n) j) = _
  rw [W4_v25, W4_v15, W4_arg5, e3, e2]
  rfl

end Cert.KernelIdeal.KValue

end
-- ==== Proof.Finite.lean ====
/-
  From the precondition to real entries. The precondition says, of each float argument array, that every entry's
  absolute value is below +∞. An extended real whose absolute value max(x, −x) is below +∞ is neither +∞ nor −∞:
  it is a real number. So under the precondition every entry of every float argument is a real.
-/
import proofs.«179152_j84645215470228_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs Cert.Pre_finite_inputs.Facts

instance : Subsingleton S_.Idx := ⟨fun a b => funext fun d => d.elim0⟩

/-- The word 0x7F800000 is +∞. -/
theorem ofBits_pinf : Ideal.ofBits .f32 0x7F800000#32 = (⊤ : EReal) := by simp [Ideal.ofBits, Ideal.ieee]

/-- An extended real whose absolute value compares below +∞ is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_pinf] at h
  have hlt : max x (-x) < (⊤ : EReal) := by
    by_contra hc
    have : FloatOps.cmpf (F := Ideal) (φ := .f32) .olt (FloatOps.hostAbsf (F := Ideal) (φ := .f32) x) (⊤ : EReal) = 0#1 := by
      show BitVec.ofBool (decide (max x (-x) < (⊤ : EReal))) = 0#1
      simp [hc]
    rw [this] at h
    exact absurd h (by decide)
  induction x using EReal.rec with
  | bot => simp at hlt
  | coe r => exact ⟨r, rfl⟩
  | top => simp at hlt

variable [Facts]

/-- Under the precondition, every entry of the five float arguments is a real. -/
theorem real_of_pre (a0 : FVec Ideal S100000x128 .f32) (a1 : IVec S2x600000 32) (a2 : FVec Ideal S128x256 .f32)
    (a3 : FVec Ideal S256 .f32) (a4 : FVec Ideal S256x24 .f32) (a5 : FVec Ideal S24 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1, andi] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  refine ⟨fun i => ?_, fun i => ?_, fun i => ?_, fun i => ?_, fun i => ?_⟩
  · exact real_of_abs_lt _ (Host.reduce_andi_all _ _ _ _ _ e0 i)
  · exact real_of_abs_lt _ (Host.reduce_andi_all _ _ _ _ _ e2 i)
  · exact real_of_abs_lt _ (Host.reduce_andi_all _ _ _ _ _ e3 i)
  · exact real_of_abs_lt _ (Host.reduce_andi_all _ _ _ _ _ e4 i)
  · exact real_of_abs_lt _ (Host.reduce_andi_all _ _ _ _ _ e5 i)

end Cert.Pre_finite_inputs.Finite

end
-- ==== Proof.LibScatterRows.lean ====
/-
  An accumulating scatter of whole rows, read at an index. For an operand x : [N, D], one destination row number
  per update row, idx : [R, 1], and updates upd : [R, D], the scatter whose window axis is the updates' axis 1
  (going to the operand's axis 1) and whose scatter index names the operand's axis 0 produces, at (n, c), the
  operand's entry plus the sum of upd[e, c] over the update rows e whose destination idx[e, 0], read as a signed
  integer, is n. An update row whose destination is outside [0, N) lands nowhere and contributes to no entry.
-/
import Idealize.ShloMosaic.PureOps.Ideal
import Idealize.ShloMosaic.Lib.ValueIdx
import proofs.«179152_j84645215470228_2_alg».proof.Proof.LibScatterDims

noncomputable section

namespace Idealize.ShloMosaic.ValueIdx

open Idealize.ShloMosaic

section ScatterRows
variable {N D R w : Nat} (wf : ScatterDims.WF ⟨2, ![N, D]⟩ ⟨2, ![R, 1]⟩ ⟨2, ![R, D]⟩ [1] [0] [0] 1)

/-- On the operand's axis 0 the window of update index j starts at idx[j₀, 0], read as a signed integer. -/
theorem rs_start0 (j : (⟨2, ![R, D]⟩ : Shape).Idx) (idx : IVec ⟨2, ![R, 1]⟩ w) :
    (rowsScatterDims N D R wf).start j idx ⟨0, Nat.zero_lt_two⟩
      = (idx (ix2 ⟨(j 0).val, idx2_lt0 j⟩ (⟨0, Nat.one_pos⟩ : Fin 1))).toInt := by
  unfold ScatterDims.start
  rw [dif_pos (show (⟨0, Nat.zero_lt_two⟩ : Fin 2) ∈ (rowsScatterDims N D R wf).scatterDimsToOperandDims from List.mem_singleton.mpr rfl)]
  congr 2
  funext b; refine Fin.ext ?_
  match b with
  | ⟨0, _⟩ => rfl
  | ⟨1, _⟩ => rfl

/-- On the operand's axis 1, which the scatter index does not name, every window starts at 0. -/
theorem rs_start1 (j : (⟨2, ![R, D]⟩ : Shape).Idx) (idx : IVec ⟨2, ![R, 1]⟩ w) :
    (rowsScatterDims N D R wf).start j idx ⟨1, Nat.one_lt_two⟩ = 0 := by
  unfold ScatterDims.start
  rw [dif_neg (show (⟨1, Nat.one_lt_two⟩ : Fin 2) ∉ (rowsScatterDims N D R wf).scatterDimsToOperandDims from
      fun h => absurd (congrArg Fin.val (List.mem_singleton.mp h)) Nat.one_ne_zero)]

/-- The operand's axis 0 is an inserted axis: the window coordinate there is 0. -/
theorem rs_window0 (j : (⟨2, ![R, D]⟩ : Shape).Idx) :
    (rowsScatterDims N D R wf).window j ⟨0, Nat.zero_lt_two⟩ = 0 := by
  unfold ScatterDims.window
  rw [dif_neg]
  simp [ScatterDims.sKept, Shape.kept, List.mem_filter]

/-- On the operand's axis 1 the window coordinate of update index j is j's own column. -/
theorem rs_window1 (j : (⟨2, ![R, D]⟩ : Shape).Idx) :
    (rowsScatterDims N D R wf).window j ⟨1, Nat.one_lt_two⟩ = (j 1).val := by
  unfold ScatterDims.window
  rw [dif_pos (by simp [ScatterDims.sKept, Shape.kept, List.mem_filter])]
  rfl

/-- Update index (e, k) lands at operand index (n, c) exactly when its destination row idx[e, 0], read as a signed
    integer, is n and its column k is c. -/
theorem rs_resultIdx_iff (e : Fin R) (k : Fin D) (idx : IVec ⟨2, ![R, 1]⟩ w) (n : Fin N) (c : Fin D) :
    (rowsScatterDims N D R wf).resultIdx? (ix2 e k) idx = some (ix2 n c)
      ↔ ((idx (ix2 e (⟨0, Nat.one_pos⟩ : Fin 1))).toInt = (n.val : ℤ) ∧ k = c) := by
  have s0 : (rowsScatterDims N D R wf).start (ix2 e k) idx ⟨0, Nat.zero_lt_two⟩
      = (idx (ix2 e (⟨0, Nat.one_pos⟩ : Fin 1))).toInt := rs_start0 wf (ix2 e k) idx
  have s1 := rs_start1 wf (ix2 e k) idx
  have w0 := rs_window0 (N := N) wf (ix2 e k)
  have w1 : (rowsScatterDims N D R wf).window (ix2 e k) ⟨1, Nat.one_lt_two⟩ = k.val := rs_window1 (N := N) wf (ix2 e k)
  have hn : n.val < N := n.isLt
  have hc : c.val < D := c.isLt
  have hk : k.val < D := k.isLt
  unfold ScatterDims.resultIdx?
  split_ifs with h
  · constructor
    · intro heq
      have heq' := Option.some.inj heq
      have v0 : ((rowsScatterDims N D R wf).start (ix2 e k) idx ⟨0, Nat.zero_lt_two⟩
          + (rowsScatterDims N D R wf).window (ix2 e k) ⟨0, Nat.zero_lt_two⟩).toNat = n.val :=
        congrArg Fin.val (congrFun heq' ⟨0, Nat.zero_lt_two⟩)
      have v1 : ((rowsScatterDims N D R wf).start (ix2 e k) idx ⟨1, Nat.one_lt_two⟩
          + (rowsScatterDims N D R wf).window (ix2 e k) ⟨1, Nat.one_lt_two⟩).toNat = c.val :=
        congrArg Fin.val (congrFun heq' ⟨1, Nat.one_lt_two⟩)
      have hh := (h ⟨0, Nat.zero_lt_two⟩).1
      rw [s0, w0] at v0 hh
      rw [s1, w1] at v1
      exact ⟨by omega, Fin.ext (by omega)⟩
    · rintro ⟨h0, h1⟩
      congr 1
      funext a
      refine Fin.ext ?_
      match a with
      | ⟨0, _⟩ =>
        show ((rowsScatterDims N D R wf).start (ix2 e k) idx ⟨0, Nat.zero_lt_two⟩
          + (rowsScatterDims N D R wf).window (ix2 e k) ⟨0, Nat.zero_lt_two⟩).toNat = n.val
        rw [s0, w0]; omega
      | ⟨1, _⟩ =>
        show ((rowsScatterDims N D R wf).start (ix2 e k) idx ⟨1, Nat.one_lt_two⟩
          + (rowsScatterDims N D R wf).window (ix2 e k) ⟨1, Nat.one_lt_two⟩).toNat = c.val
        rw [s1, w1, ← h1]; omega
  · constructor
    · intro heq; exact absurd heq (by simp)
    · rintro ⟨h0, h1⟩
      exfalso
      apply h
      intro a
      match a with
      | ⟨0, _⟩ =>
        show 0 ≤ (rowsScatterDims N D R wf).start (ix2 e k) idx ⟨0, Nat.zero_lt_two⟩
            + (rowsScatterDims N D R wf).window (ix2 e k) ⟨0, Nat.zero_lt_two⟩ ∧
          (rowsScatterDims N D R wf).start (ix2 e k) idx ⟨0, Nat.zero_lt_two⟩
            + (rowsScatterDims N D R wf).window (ix2 e k) ⟨0, Nat.zero_lt_two⟩ < ((N : Nat) : ℤ)
        rw [s0, w0]; omega
      | ⟨1, _⟩ =>
        show 0 ≤ (rowsScatterDims N D R wf).start (ix2 e k) idx ⟨1, Nat.one_lt_two⟩
            + (rowsScatterDims N D R wf).window (ix2 e k) ⟨1, Nat.one_lt_two⟩ ∧
          (rowsScatterDims N D R wf).start (ix2 e k) idx ⟨1, Nat.one_lt_two⟩
            + (rowsScatterDims N D R wf).window (ix2 e k) ⟨1, Nat.one_lt_two⟩ < ((D : Nat) : ℤ)
        rw [s1, w1]; omega

/-- The accumulating row scatter at (n, c): the operand's entry plus the sum of upd[e, c] over the update rows e
    whose destination idx[e, 0] (signed) is n. -/
theorem scatter_rows_apply (x : (⟨2, ![N, D]⟩ : Shape).Idx → EReal) (idx : IVec ⟨2, ![R, 1]⟩ w)
    (upd : (⟨2, ![R, D]⟩ : Shape).Idx → EReal) (n : Fin N) (c : Fin D) :
    Ideal.hostScatterAdd (rowsScatterDims N D R wf) x idx upd (ix2 n c)
      = x (ix2 n c) + ∑ e ∈ Finset.univ.filter
          (fun e : Fin R => (idx (ix2 e (⟨0, Nat.one_pos⟩ : Fin 1))).toInt = (n.val : ℤ)), upd (ix2 e c) := by
  unfold Ideal.hostScatterAdd
  congr 1
  rw [Finset.sum_filter, Finset.sum_filter, sum_idx2]
  refine Finset.sum_congr rfl (fun e _ => ?_)
  rw [Finset.sum_eq_single c]
  · exact if_congr ((rs_resultIdx_iff wf e c idx n c).trans (and_iff_left rfl)) rfl rfl
  · intro k _ hkc
    exact if_neg (fun hh => hkc ((rs_resultIdx_iff wf e k idx n c).mp hh).2)
  · intro hc; exact absurd (Finset.mem_univ c) hc

end ScatterRows

end Idealize.ShloMosaic.ValueIdx

end
-- ==== Proof.GinLaw.lean ====
/-
  The algebra of the two-layer graph network on real entries. The neighbourhood sum of an array, read at an entry,
  is the sum over the edges into that node of the entry's column in the edge's source row. Such a sum commutes with
  a product by a matrix on the right: Σ_k (h[n,k] + Σ_e h[s e,k])·W[k,j] = Σ_k h[n,k]·W[k,j] + Σ_e Σ_k h[s e,k]·W[k,j].
  In the extended reals the distributive law fails at the infinities (∞ − ∞), so the entries are assumed real; the
  bias, added last on both sides, is arbitrary. Sums, products and maxima of reals are real, so layer one of real
  inputs is real.
-/
import proofs.«179152_j84645215470228_2_alg».proof.Proof.GinSpec
import proofs.«179152_j84645215470228_2_alg».proof.Proof.LibGatherRows
import proofs.«179152_j84645215470228_2_alg».proof.Proof.LibScatterRows

noncomputable section

namespace Cert.Gin

open Idealize.ShloMosaic Idealize.ShloMosaic.ValueIdx

/-- Every entry of the array is a real number. -/
def IsReal {ι : Type} (X : ι → EReal) : Prop := ∀ i, ∃ r : ℝ, X i = (r : EReal)

/-- The 32-bit word of 1.0 denotes 1. -/
theorem one32_eq : one32 = 1 := by
  simp [Ideal.ofBits, Ideal.ieee, -EReal.coe_mul]; norm_num

/-- The 32-bit word of +0.0 denotes 0. -/
theorem zero32_eq : zero32 = 0 := by
  simp [Ideal.ofBits, Ideal.ieee]

/-- The source row of edge e: its 32-bit row number read as a signed integer and clamped into [0, 100000 − 1]. -/
abbrev srcRow (src : Rows) (e : Fin 600000) : Fin 100000 :=
  ⟨min (src (ix2 e (⟨0, Nat.one_pos⟩ : Fin 1))).toInt.toNat (100000 - 1), by omega⟩

/-- The neighbourhood sum at (n, j): zero plus the sum, over the edges e whose destination row is n, of X at
    (source row of e, j). -/
theorem agg_apply (D : Nat)
    (wfg : GatherDims.WF ⟨2, ![100000, D]⟩ ⟨2, ![600000, 1]⟩ ⟨2, ![600000, D]⟩ [1] [0] [] [0] [] 1 ![1, D])
    (wfs : ScatterDims.WF ⟨2, ![100000, D]⟩ ⟨2, ![600000, 1]⟩ ⟨2, ![600000, D]⟩ [1] [0] [0] 1)
    (X : Arr 100000 D) (src dst : Rows) (n : Fin 100000) (j : Fin D) :
    agg D wfg wfs X src dst (ix2 n j)
      = zero32 + ∑ e ∈ Finset.univ.filter
          (fun e : Fin 600000 => (dst (ix2 e (⟨0, Nat.one_pos⟩ : Fin 1))).toInt = (n.val : ℤ)),
          X (ix2 (srcRow src e) j) := by
  unfold agg
  rw [scatter_rows_apply]
  refine congrArg (fun t => zero32 + t) ?_
  refine Finset.sum_congr rfl (fun e _ => ?_)
  rw [gather_rows_apply (by norm_num) wfg X src (ix2 e j)]
  have hi : rowsIdx (ix2 e j) = ix2 e (⟨0, Nat.one_pos⟩ : Fin 1) := by
    funext a
    match a with
    | ⟨0, _⟩ => rfl
    | ⟨1, _⟩ => rfl
  refine congrArg X ?_
  funext a
  refine Fin.ext ?_
  match a with
  | ⟨0, _⟩ =>
    show min (src (rowsIdx (ix2 e j))).toInt.toNat (100000 - 1)
      = min (src (ix2 e (⟨0, Nat.one_pos⟩ : Fin 1))).toInt.toNat (100000 - 1)
    rw [hi]
  | ⟨1, _⟩ => rfl

/-! ## Real values inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  Monotone.map_max EReal.coe_strictMono.monotone

/-- The aggregated-first scores equal the projected-first scores when the hidden layer and the weights are real. -/
theorem score_eq
    (wfg256 : GatherDims.WF ⟨2, ![100000, 256]⟩ ⟨2, ![600000, 1]⟩ ⟨2, ![600000, 256]⟩ [1] [0] [] [0] [] 1 ![1, 256])
    (wfs256 : ScatterDims.WF ⟨2, ![100000, 256]⟩ ⟨2, ![600000, 1]⟩ ⟨2, ![600000, 256]⟩ [1] [0] [0] 1)
    (wfg24 : GatherDims.WF ⟨2, ![100000, 24]⟩ ⟨2, ![600000, 1]⟩ ⟨2, ![600000, 24]⟩ [1] [0] [] [0] [] 1 ![1, 24])
    (wfs24 : ScatterDims.WF ⟨2, ![100000, 24]⟩ ⟨2, ![600000, 1]⟩ ⟨2, ![600000, 24]⟩ [1] [0] [0] 1)
    (h : Arr 100000 256) (W2 : Arr 256 24) (b2 : Vc 24) (src dst : Rows)
    (hh : IsReal h) (hW : IsReal W2) (n : Fin 100000) (j : Fin 24) :
    scoreR h (agg 256 wfg256 wfs256 h src dst) W2 b2 n j
      = scoreK (arr2 (proj h W2)) (agg 24 wfg24 wfs24 (arr2 (proj h W2)) src dst) b2 n j := by
  choose hr hhr using hh
  choose wr hwr using hW
  unfold scoreR scoreK
  refine congrArg (fun t => t + b2 (ix1 j)) ?_
  simp only [agg_apply, arr2_apply, proj, one32_eq, zero32_eq, hhr, hwr, zero_add, one_mul]
  simp only [← EReal.coe_mul, ← coe_sum, ← EReal.coe_add]
  refine congrArg (fun r : ℝ => (r : EReal)) ?_
  simp only [add_mul, Finset.sum_add_distrib, Finset.sum_mul]
  rw [Finset.sum_comm]

/-! ## Layer one of real inputs is real -/

theorem real_add {a b : EReal} (ha : ∃ r : ℝ, a = (r : EReal)) (hb : ∃ r : ℝ, b = (r : EReal)) :
    ∃ r : ℝ, a + b = (r : EReal) := by
  obtain ⟨r, rfl⟩ := ha; obtain ⟨t, rfl⟩ := hb; exact ⟨r + t, (EReal.coe_add r t).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨t, rfl⟩ := hb; exact ⟨r * t, (EReal.coe_mul r t).symm⟩

theorem real_max {a b : EReal} (ha : ∃ r : ℝ, a = (r : EReal)) (hb : ∃ r : ℝ, b = (r : EReal)) :
    ∃ r : ℝ, max a b = (r : EReal) := by
  obtain ⟨r, rfl⟩ := ha; obtain ⟨t, rfl⟩ := hb; exact ⟨max r t, (coe_max r t).symm⟩

theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih (fun i hi => hf i (Finset.mem_insert_of_mem hi)))

theorem real_one32 : ∃ r : ℝ, one32 = (r : EReal) := ⟨1, one32_eq⟩
theorem real_zero32 : ∃ r : ℝ, zero32 = (r : EReal) := ⟨0, zero32_eq⟩

/-- The neighbourhood sum of a real array is real. -/
theorem agg_real (D : Nat)
    (wfg : GatherDims.WF ⟨2, ![100000, D]⟩ ⟨2, ![600000, 1]⟩ ⟨2, ![600000, D]⟩ [1] [0] [] [0] [] 1 ![1, D])
    (wfs : ScatterDims.WF ⟨2, ![100000, D]⟩ ⟨2, ![600000, 1]⟩ ⟨2, ![600000, D]⟩ [1] [0] [0] 1)
    (X : Arr 100000 D) (src dst : Rows) (hX : IsReal X) : IsReal (agg D wfg wfs X src dst) := by
  intro i
  obtain ⟨p, q, rfl⟩ : ∃ (p : Fin 100000) (q : Fin D), i = ix2 p q :=
    ⟨⟨(i 0).val, idx2_lt0 i⟩, ⟨(i 1).val, idx2_lt1 i⟩, by funext a; match a with | ⟨0, _⟩ => rfl | ⟨1, _⟩ => rfl⟩
  rw [agg_apply]
  exact real_add real_zero32 (real_sum _ _ (fun e _ => hX _))

/-- Layer one of real features, weights and bias is real. -/
theorem hidden_real
    (wfg : GatherDims.WF ⟨2, ![100000, 128]⟩ ⟨2, ![600000, 1]⟩ ⟨2, ![600000, 128]⟩ [1] [0] [] [0] [] 1 ![1, 128])
    (wfs : ScatterDims.WF ⟨2, ![100000, 128]⟩ ⟨2, ![600000, 1]⟩ ⟨2, ![600000, 128]⟩ [1] [0] [0] 1)
    (x : Arr 100000 128) (W1 : Arr 128 256) (b1 : Vc 256) (src dst : Rows)
    (hx : IsReal x) (hW : IsReal W1) (hb : IsReal b1) :
    IsReal (arr2 (hidden x (agg 128 wfg wfs x src dst) W1 b1)) := by
  intro i
  obtain ⟨p, q, rfl⟩ : ∃ (p : Fin 100000) (q : Fin 256), i = ix2 p q :=
    ⟨⟨(i 0).val, idx2_lt0 i⟩, ⟨(i 1).val, idx2_lt1 i⟩, by funext a; match a with | ⟨0, _⟩ => rfl | ⟨1, _⟩ => rfl⟩
  rw [arr2_apply]
  unfold hidden
  refine real_max (real_add (real_sum _ _ (fun k _ => ?_)) (hb _)) real_zero32
  exact real_mul (real_add (real_mul (hx _) real_one32) (agg_real 128 wfg wfs x src dst hx _)) (hW _)

end Cert.Gin

end
-- ==== Proof.GinBridge.lean ====
/-
  The network's result in its two arrangements. With real features, weights and layer-one bias the hidden layer is
  real, so for every node the row of scores computed by summing over the neighbourhood first and projecting after
  equals the row computed by projecting first; the row-wise log-softmax is a function of the row of scores alone,
  hence the two results agree entry by entry. The layer-two bias is arbitrary.
-/
import proofs.«179152_j84645215470228_2_alg».proof.Proof.GinLaw

noncomputable section

namespace Cert.Gin

open Idealize.ShloMosaic Idealize.ShloMosaic.ValueIdx

/-- Log-softmax of the aggregated-first scores equals log-softmax of the projected-first scores, for the hidden
    layer of real features, real weights and a real layer-one bias. -/
theorem out_eq
    (wfg128 : GatherDims.WF ⟨2, ![100000, 128]⟩ ⟨2, ![600000, 1]⟩ ⟨2, ![600000, 128]⟩ [1] [0] [] [0] [] 1 ![1, 128])
    (wfs128 : ScatterDims.WF ⟨2, ![100000, 128]⟩ ⟨2, ![600000, 1]⟩ ⟨2, ![600000, 128]⟩ [1] [0] [0] 1)
    (wfg256 : GatherDims.WF ⟨2, ![100000, 256]⟩ ⟨2, ![600000, 1]⟩ ⟨2, ![600000, 256]⟩ [1] [0] [] [0] [] 1 ![1, 256])
    (wfs256 : ScatterDims.WF ⟨2, ![100000, 256]⟩ ⟨2, ![600000, 1]⟩ ⟨2, ![600000, 256]⟩ [1] [0] [0] 1)
    (wfg24 : GatherDims.WF ⟨2, ![100000, 24]⟩ ⟨2, ![600000, 1]⟩ ⟨2, ![600000, 24]⟩ [1] [0] [] [0] [] 1 ![1, 24])
    (wfs24 : ScatterDims.WF ⟨2, ![100000, 24]⟩ ⟨2, ![600000, 1]⟩ ⟨2, ![600000, 24]⟩ [1] [0] [0] 1)
    (x : Arr 100000 128) (W1 : Arr 128 256) (b1 : Vc 256) (W2 : Arr 256 24) (b2 : Vc 24) (src dst : Rows)
    (hx : IsReal x) (hW1 : IsReal W1) (hb1 : IsReal b1) (hW2 : IsReal W2) :
    (arr2 (fun n j => lsm (scoreR (arr2 (hidden x (agg 128 wfg128 wfs128 x src dst) W1 b1))
        (agg 256 wfg256 wfs256 (arr2 (hidden x (agg 128 wfg128 wfs128 x src dst) W1 b1)) src dst) W2 b2 n) j)
      : Arr 100000 24)
      = arr2 (fun n j => lsm (scoreK (arr2 (proj (arr2 (hidden x (agg 128 wfg128 wfs128 x src dst) W1 b1)) W2))
          (agg 24 wfg24 wfs24 (arr2 (proj (arr2 (hidden x (agg 128 wfg128 wfs128 x src dst) W1 b1)) W2)) src dst)
          b2 n) j) := by
  have hH := hidden_real wfg128 wfs128 x W1 b1 src dst hx hW1 hb1
  generalize arr2 (hidden x (agg 128 wfg128 wfs128 x src dst) W1 b1) = H at hH ⊢
  have hrow : ∀ n : Fin 100000, scoreR H (agg 256 wfg256 wfs256 H src dst) W2 b2 n
      = scoreK (arr2 (proj H W2)) (agg 24 wfg24 wfs24 (arr2 (proj H W2)) src dst) b2 n :=
    fun n => funext fun j => score_eq wfg256 wfs256 wfg24 wfs24 H W2 b2 src dst hH hW2 n j
  refine congrArg arr2 ?_
  funext n j
  rw [hrow n]

end Cert.Gin

end
-- ==== Proof.Region0.lean ====
/-
  Region 0 of the kernel as a function of whole arrays.

  The region walks the 100000 rows in 25 blocks of 4000. At block t it takes rows 4000 t … 4000 t + 3999 of the feature
  array x and of the neighbourhood-sum array a (both [100000, 128]), forms x·1 + a, multiplies by the whole weight array
  W1 : [128, 256], adds the bias b1 : [256] along every row, takes the maximum with 0, and writes the result to the same
  rows of its output. Read one entry at a time, with every operation exact, the output at (n, c) is
  max(∑ k, (x (n, k) · 1 + a (n, k)) · W1 (k, c) + b1 (c), 0), whatever the four arrays hold when the region is entered.

  First the block product and then the whole payload at an index, then each input block as rows of its array (or as its
  whole array), then what a grid point writes back, that the 25 blocks cover every row, and the array.
-/
import proofs.«179152_j84645215470228_2_alg».proof.Proof.Gen.KernelIdeal.Frame
import proofs.«179152_j84645215470228_2_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Cert.Gin
open Idealize.ShloMosaic.TcCoe Idealize.SL.Sem
open Idealize.ShloMosaic.Pipeline (Dat)

/-! ## The body's payload at an index -/

theorem lhs0_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs0_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs0_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs0_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The block product of layer one at (p, q): row p of the left block times column q of the right one. -/
theorem mm0_apply (l : FVec Ideal S4000x128 .bf16) (r : FVec Ideal S128x256 .bf16) (p : Fin 4000) (q : Fin 256) :
    FloatOps.matmul dot_S4000x128_S128x256_S4000x256_1_0_0_1_n_n none l r (constant (F := Ideal) S4000x256 .f32 0x00000000#32) (ix2 p q)
      = ∑ k : Fin 128, l (ix2 p k) * r (ix2 k q) := by
  refine (Ideal.matmul_constant_zero_apply dot_S4000x128_S128x256_S4000x256_1_0_0_1_n_n none l r (ix2 p q)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The body's payload at (p, q): max((x·1 + a) row p times W1 column q, plus b1 at q, 0). -/
theorem pay0_apply (x0 x1 : Vec Ideal S4000x128 .f32) (x2 : Vec Ideal S128x256 .f32) (x3 : Vec Ideal S256 .f32)
    (p : Fin 4000) (q : Fin 256) :
    k0_pay1 (F := Ideal) x0 x1 x2 x3 (ix2 p q)
      = max ((∑ k : Fin 128, (x0 (ix2 p k) * one32 + x1 (ix2 p k)) * x2 (ix2 k q)) + x3 (ix1 q)) zero32 := by
  unfold k0_pay1
  refine (maximumf_apply _ _ (ix2 p q)).trans ?_
  refine congrArg₂ max ?_ rfl
  refine (addf_apply _ _ (ix2 p q)).trans ?_
  refine congrArg₂ (· + ·) ?_ ?_
  · refine (mm0_apply _ _ p q).trans ?_
    refine Finset.sum_congr rfl fun k _ => ?_
    rw [shapeCast_self]
    rfl
  · exact (broadcastTo_1b_ab_apply _ _ p q).trans (shapeCast_a_1a_apply x3 _ 0 q)

/-! ## From the blocks to the array -/

variable (V : (c : Dev nD) → (b : Ref sig .tc) → Buf (Elt Ideal) ((c : Thread nD τ).loc b))

theorem zero_off0 : (![0, 0] : Fin 2 → Nat) = fun _ => 0 := funext fun a => by fin_cases a <;> rfl
theorem zero_off0' : (![0] : Fin 1 → Nat) = fun _ => 0 := funext fun a => by fin_cases a; rfl

/-- The index maps, decided over the 25 grid points: the row-blocked windows sit at block (t, 0), the small ones at
    their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Window 0's block at point t is rows 4000 t … 4000 t + 3999 of its array. -/
theorem iblk0_0_apply (c : Dev nD) (t : Fin cfg0.N) (x : S4000x128.Idx) (k : S100000x128.Idx)
    (hk0 : (k 0).val = 4000 * t.val + (x 0).val) (hk1 : (k 1).val = (x 1).val) :
    (iblk0 V c 0 t : Vec Ideal S4000x128 .f32) x = (V c (Pipeline.arrRef spec0 0) : S100000x128.Idx → EReal) k := by
  obtain ⟨e0, e1, -⟩ := idx_facts0 t
  unfold iblk0
  rw [View.read_apply]
  refine congrArg (V c (Pipeline.arrRef spec0 0)) (funext fun a => Fin.ext ?_)
  match a with
  | ⟨0, _⟩ => show win0_0.index t 0 * 4000 + 1 * (x 0).val = (k 0).val; rw [e0, hk0]; omega
  | ⟨1, _⟩ => show win0_0.index t 1 * 128 + 1 * (x 1).val = (k 1).val; rw [e1, hk1]; omega

/-- Window 1's block at point t is the same rows of its array. -/
theorem iblk0_1_apply (c : Dev nD) (t : Fin cfg0.N) (x : S4000x128.Idx) (k : S100000x128.Idx)
    (hk0 : (k 0).val = 4000 * t.val + (x 0).val) (hk1 : (k 1).val = (x 1).val) :
    (iblk0 V c 1 t : Vec Ideal S4000x128 .f32) x = (V c (Pipeline.arrRef spec0 1) : S100000x128.Idx → EReal) k := by
  obtain ⟨-, -, e0, e1, -⟩ := idx_facts0 t
  unfold iblk0
  rw [View.read_apply]
  refine congrArg (V c (Pipeline.arrRef spec0 1)) (funext fun a => Fin.ext ?_)
  match a with
  | ⟨0, _⟩ => show win0_1.index t 0 * 4000 + 1 * (x 0).val = (k 0).val; rw [e0, hk0]; omega
  | ⟨1, _⟩ => show win0_1.index t 1 * 128 + 1 * (x 1).val = (k 1).val; rw [e1, hk1]; omega

/-- Window 2's block at every point is its whole array. -/
theorem iblk0_2_apply (c : Dev nD) (t : Fin cfg0.N) (x : S128x256.Idx) :
    (iblk0 V c 2 t : Vec Ideal S128x256 .f32) x = (V c (Pipeline.arrRef spec0 2) : S128x256.Idx → EReal) x := by
  obtain ⟨-, -, -, -, e0, e1, -⟩ := idx_facts0 t
  unfold iblk0
  rw [View.read_apply]
  refine congrArg (V c (Pipeline.arrRef spec0 2)) (funext fun a => Fin.ext ?_)
  match a with
  | ⟨0, _⟩ => show win0_2.index t 0 * 128 + 1 * (x 0).val = (x 0).val; rw [e0]; omega
  | ⟨1, _⟩ => show win0_2.index t 1 * 256 + 1 * (x 1).val = (x 1).val; rw [e1]; omega

/-- Window 3's block at every point is its whole array. -/
theorem iblk0_3_apply (c : Dev nD) (t : Fin cfg0.N) (x : S256.Idx) :
    (iblk0 V c 3 t : Vec Ideal S256 .f32) x = (V c (Pipeline.arrRef spec0 3) : S256.Idx → EReal) x := by
  obtain ⟨-, -, -, -, -, -, e0, -⟩ := idx_facts0 t
  unfold iblk0
  rw [View.read_apply]
  refine congrArg (V c (Pipeline.arrRef spec0 3)) (funext fun a => Fin.ext ?_)
  match a with
  | ⟨0, _⟩ => show win0_3.index t 0 * 256 + 1 * (x 0).val = (x 0).val; rw [e0]; omega

/-- One entry, over variables: if the two row blocks' row p is row n of x and of a, and the small blocks are W and b,
    the payload at (p, q) is layer one at (n, q). -/
theorem point0 (x0 x1 : Vec Ideal S4000x128 .f32) (x2 : Vec Ideal S128x256 .f32) (x3 : Vec Ideal S256 .f32)
    (x a : Arr 100000 128) (W : Arr 128 256) (b : Vc 256)
    (p : Fin 4000) (q : Fin 256) (i : S100000x256.Idx) (n : Fin 100000) (hi : i = ix2 n q)
    (h0 : ∀ k : Fin 128, x0 (ix2 p k) = x (ix2 n k)) (h1 : ∀ k : Fin 128, x1 (ix2 p k) = a (ix2 n k))
    (h2 : ∀ k : Fin 128, x2 (ix2 k q) = W (ix2 k q)) (h3 : x3 (ix1 q) = b (ix1 q)) :
    k0_pay1 (F := Ideal) x0 x1 x2 x3 (ix2 p q) = arr2 (Gin.hidden x a W b) i := by
  subst hi
  rw [pay0_apply, arr2_apply]
  unfold Gin.hidden
  rw [h3]
  refine congrArg (fun s => max (s + b (ix1 q)) zero32) (Finset.sum_congr rfl fun k _ => ?_)
  rw [h0 k, h1 k, h2 k]

/-- What point t writes back is block t of layer one of the arrays the region finds. -/
theorem flushed0_eq (c : Dev nD) (t : Fin cfg0.N) :
    (dat0 (F := Ideal) V c).flushed 4 t = ((cfg0.win 4).blk t).view.read (Elt Ideal)
      (arr2 (Gin.hidden (V c (Pipeline.arrRef spec0 0)) (V c (Pipeline.arrRef spec0 1)) (V c (Pipeline.arrRef spec0 2)) (V c (Pipeline.arrRef spec0 3)))) := by
  show (cfg0.win 4).cut (grid0.coords t) ((dat0 V c).after 4 t) = _
  rw [after0_4]
  unfold out0_4
  rw [View.canon_unit_zero zero_off0]
  simp only [View.ld_unit_zero (S := S4000x128) zero_off0, View.ld_unit_zero (S := S128x256) zero_off0, View.ld_unit_zero (S := S256) zero_off0']
  obtain ⟨-, -, -, -, -, -, -, e0, e1⟩ := idx_facts0 t
  have ht : t.val < 25 := by have h := t.isLt; have hN : cfg0.N = 25 := N_0; omega
  funext j
  obtain ⟨p, q, rfl⟩ : ∃ (p : Fin 4000) (q : Fin 256), j = ix2 p q := ⟨j 0, j 1, eq_ix2 j⟩
  show k0_pay1 (F := Ideal) (iblk0 V c 0 t) (iblk0 V c 1 t) (iblk0 V c 2 t) (iblk0 V c 3 t) (ix2 p q)
    = arr2 (Gin.hidden (V c (Pipeline.arrRef spec0 0)) (V c (Pipeline.arrRef spec0 1)) (V c (Pipeline.arrRef spec0 2)) (V c (Pipeline.arrRef spec0 3)))
        (((cfg0.win 4).blk t).view.emb (ix2 p q))
  have hp : p.val < 4000 := p.isLt
  refine point0 (iblk0 V c 0 t) (iblk0 V c 1 t) (iblk0 V c 2 t) (iblk0 V c 3 t)
    (V c (Pipeline.arrRef spec0 0)) (V c (Pipeline.arrRef spec0 1)) (V c (Pipeline.arrRef spec0 2)) (V c (Pipeline.arrRef spec0 3)) p q
    (((cfg0.win 4).blk t).view.emb (ix2 p q)) ⟨4000 * t.val + p.val, by omega⟩ ?_ (fun k => ?_) (fun k => ?_) (fun k => ?_) ?_
  · funext a
    apply Fin.ext
    match a with
    | ⟨0, _⟩ => show win0_4.index t 0 * 4000 + 1 * p.val = 4000 * t.val + p.val; rw [e0]; omega
    | ⟨1, _⟩ => show win0_4.index t 1 * 256 + 1 * q.val = q.val; rw [e1]; omega
  · exact iblk0_0_apply V c t (ix2 p k) (ix2 ⟨4000 * t.val + p.val, by omega⟩ k) rfl rfl
  · exact iblk0_1_apply V c t (ix2 p k) (ix2 ⟨4000 * t.val + p.val, by omega⟩ k) rfl rfl
  · exact iblk0_2_apply V c t (ix2 k q)
  · exact iblk0_3_apply V c t (ix1 q)

/-- An index is in point t's block iff each coordinate is in the block's range on its axis. -/
theorem mem_blk0 (t : Fin cfg0.N) (i : S100000x256.Idx) :
    i ∈ ((cfg0.win 4).blk t).view.set ↔ ∀ a : Fin 2, win0_4.index t a * S4000x256.size a ≤ (i a).val ∧ (i a).val < win0_4.index t a * S4000x256.size a + S4000x256.size a := by
  show i ∈ ((View.whole main_v14).slice (win0_4.rect t)).set ↔ _
  rw [View.set_slice_whole, Rect.mem_set_unit]
  exact Iff.rfl

/-- Every row n is in the block of point n / 4000, which writes back. -/
theorem cover0 (i : S100000x256.Idx) :
    ∃ t : Fin cfg0.N, (cfg0.win 4).flush t = true ∧ i ∈ ((cfg0.win 4).blk t).view.set := by
  have hi0 : (i 0).val < 100000 := idx2_lt0 i
  have hi1 : (i 1).val < 256 := idx2_lt1 i
  have hN : cfg0.N = 25 := N_0
  have ht : (i 0).val / 4000 < cfg0.N := by rw [hN]; omega
  obtain ⟨-, -, -, -, -, -, -, e0, e1⟩ := idx_facts0 ⟨(i 0).val / 4000, ht⟩
  refine ⟨⟨(i 0).val / 4000, ht⟩, flush0_4 _, ?_⟩
  rw [mem_blk0]
  intro a
  match a with
  | ⟨0, _⟩ =>
    show win0_4.index ⟨(i 0).val / 4000, ht⟩ 0 * 4000 ≤ (i 0).val ∧ (i 0).val < win0_4.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_4.index ⟨(i 0).val / 4000, ht⟩ 1 * 256 ≤ (i 1).val ∧ (i 1).val < win0_4.index ⟨(i 0).val / 4000, ht⟩ 1 * 256 + 256
    rw [e1]; omega

/-- REGION 0: its output array after the region is layer one of the arrays the region finds. -/
theorem final0 (c : Dev nD) : ((Gen.dat0 (F := Ideal) V c).arrAt 4 cfg0.N : Arr 100000 256)
    = arr2 (Gin.hidden (V c (Pipeline.arrRef spec0 0)) (V c (Pipeline.arrRef spec0 1)) (V c (Pipeline.arrRef spec0 2)) (V c (Pipeline.arrRef spec0 3))) :=
  (dat0 (F := Ideal) V c).arrAt_eq_of_cover 4 _ (fun t _ => flushed0_eq V c t) cover0

end Cert.KernelIdeal.RegionValue

end
-- ==== Proof.Region1.lean ====
/-
  Region 1 of the kernel as a function of whole arrays.

  The region walks the 100000 rows in 25 blocks of 4000. At block t it multiplies rows 4000 t … 4000 t + 3999 of the
  hidden array h : [100000, 256] by the whole weight array W2 : [256, 24] and writes the product to the same rows of
  its output. Read one entry at a time, with every operation exact, the output at (n, j) is ∑ k, h (n, k) · W2 (k, j),
  whatever the arrays h and W2 hold when the region is entered.

  First the block product at an index (the contraction index of the product is its one coordinate), then each input
  block as rows of its array, then what a grid point writes back, that the 25 blocks cover every row, and the array.
-/
import proofs.«179152_j84645215470228_2_alg».proof.Proof.Gen.KernelIdeal.Frame
import proofs.«179152_j84645215470228_2_alg».proof.Proof.GinSpec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx Cert.Gin
open Idealize.ShloMosaic.TcCoe Idealize.SL.Sem
open Idealize.ShloMosaic.Pipeline (Dat)

/-! ## The block product at an index -/

theorem lhs1_0 (i : S4000x24.Idx) (q : dot_S4000x256_S256x24_S4000x24_1_0_0_1_n_n.contr.Idx) :
    (dot_S4000x256_S256x24_S4000x24_1_0_0_1_n_n.lhsIdx i q 0).val = (i 0).val := by
  unfold DotDims.lhsIdx
  rw [dif_neg (show ¬(0 : Fin S4000x256.rank) ∈ dot_S4000x256_S256x24_S4000x24_1_0_0_1_n_n.lhsBatch by decide), dif_pos (show (0 : Fin S4000x256.rank) ∈ dot_S4000x256_S256x24_S4000x24_1_0_0_1_n_n.lhsNonContracting by decide)]
  rfl
theorem lhs1_1 (i : S4000x24.Idx) (q : dot_S4000x256_S256x24_S4000x24_1_0_0_1_n_n.contr.Idx) :
    (dot_S4000x256_S256x24_S4000x24_1_0_0_1_n_n.lhsIdx i q 1).val = (q ⟨0, by decide⟩).val :=
  dot_S4000x256_S256x24_S4000x24_1_0_0_1_n_n.lhsIdx_val_of_single rfl i q
theorem rhs1_0 (i : S4000x24.Idx) (q : dot_S4000x256_S256x24_S4000x24_1_0_0_1_n_n.contr.Idx) :
    (dot_S4000x256_S256x24_S4000x24_1_0_0_1_n_n.rhsIdx i q 0).val = (q ⟨0, by decide⟩).val :=
  dot_S4000x256_S256x24_S4000x24_1_0_0_1_n_n.rhsIdx_val_of_single rfl i q
theorem rhs1_1 (i : S4000x24.Idx) (q : dot_S4000x256_S256x24_S4000x24_1_0_0_1_n_n.contr.Idx) :
    (dot_S4000x256_S256x24_S4000x24_1_0_0_1_n_n.rhsIdx i q 1).val = (i 1).val := by
  unfold DotDims.rhsIdx
  rw [dif_neg (show ¬(1 : Fin S256x24.rank) ∈ dot_S4000x256_S256x24_S4000x24_1_0_0_1_n_n.rhsBatch by decide), dif_pos (show (1 : Fin S256x24.rank) ∈ dot_S4000x256_S256x24_S4000x24_1_0_0_1_n_n.rhsNonContracting by decide)]
  rfl

/-- The body's payload at (p, q): row p of the first block times column q of the second. -/
theorem pay1_apply (x0 : Vec Ideal S4000x256 .f32) (x1 : Vec Ideal S256x24 .f32) (p : Fin 4000) (q : Fin 24) :
    k1_pay1 (F := Ideal) x0 x1 (ix2 p q) = ∑ k : Fin 256, x0 (ix2 p k) * x1 (ix2 k q) := by
  unfold k1_pay1
  refine (Ideal.matmul_constant_zero_apply dot_S4000x256_S256x24_S4000x24_1_0_0_1_n_n none _ _ (ix2 p q)).trans ?_
  rw [← Equiv.sum_comp (contrEquiv1 dot_S4000x256_S256x24_S4000x24_1_0_0_1_n_n 256 rfl rfl).symm]
  refine Finset.sum_congr rfl fun k _ => ?_
  have hk := contrEquiv1_symm_val dot_S4000x256_S256x24_S4000x24_1_0_0_1_n_n 256 rfl rfl k
  have el : dot_S4000x256_S256x24_S4000x24_1_0_0_1_n_n.lhsIdx (ix2 p q) ((contrEquiv1 dot_S4000x256_S256x24_S4000x24_1_0_0_1_n_n 256 rfl rfl).symm k) = ix2 p k := funext fun a => Fin.ext (by
    match a with
    | ⟨0, _⟩ => exact lhs1_0 _ _
    | ⟨1, _⟩ => exact (lhs1_1 _ _).trans hk)
  have er : dot_S4000x256_S256x24_S4000x24_1_0_0_1_n_n.rhsIdx (ix2 p q) ((contrEquiv1 dot_S4000x256_S256x24_S4000x24_1_0_0_1_n_n 256 rfl rfl).symm k) = ix2 k q := funext fun a => Fin.ext (by
    match a with
    | ⟨0, _⟩ => exact (rhs1_0 _ _).trans hk
    | ⟨1, _⟩ => exact rhs1_1 _ _)
  rw [el, er, shapeCast_self]
  rfl

/-! ## From the blocks to the array -/

variable (V : (c : Dev nD) → (b : Ref sig .tc) → Buf (Elt Ideal) ((c : Thread nD τ).loc b))

theorem zero_off1 : (![0, 0] : Fin 2 → Nat) = fun _ => 0 := funext fun a => by fin_cases a <;> rfl

/-- The index maps, decided over the 25 grid points: the row-blocked windows sit at block (t, 0), the small one at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point t is rows 4000 t … 4000 t + 3999 of its array. -/
theorem iblk1_0_apply (c : Dev nD) (t : Fin cfg1.N) (x : S4000x256.Idx) (k : S100000x256.Idx)
    (hk0 : (k 0).val = 4000 * t.val + (x 0).val) (hk1 : (k 1).val = (x 1).val) :
    (iblk1 V c 0 t : Vec Ideal S4000x256 .f32) x = (V c (Pipeline.arrRef spec1 0) : S100000x256.Idx → EReal) k := by
  obtain ⟨e0, e1, -, -, -, -⟩ := idx_facts1 t
  unfold iblk1
  rw [View.read_apply]
  refine congrArg (V c (Pipeline.arrRef spec1 0)) (funext fun a => Fin.ext ?_)
  match a with
  | ⟨0, _⟩ => show win1_0.index t 0 * 4000 + 1 * (x 0).val = (k 0).val; rw [e0, hk0]; omega
  | ⟨1, _⟩ => show win1_0.index t 1 * 256 + 1 * (x 1).val = (k 1).val; rw [e1, hk1]; omega

/-- Window 1's block at every point is its whole array. -/
theorem iblk1_1_apply (c : Dev nD) (t : Fin cfg1.N) (x : S256x24.Idx) :
    (iblk1 V c 1 t : Vec Ideal S256x24 .f32) x = (V c (Pipeline.arrRef spec1 1) : S256x24.Idx → EReal) x := by
  obtain ⟨-, -, e0, e1, -, -⟩ := idx_facts1 t
  unfold iblk1
  rw [View.read_apply]
  refine congrArg (V c (Pipeline.arrRef spec1 1)) (funext fun a => Fin.ext ?_)
  match a with
  | ⟨0, _⟩ => show win1_1.index t 0 * 256 + 1 * (x 0).val = (x 0).val; rw [e0]; omega
  | ⟨1, _⟩ => show win1_1.index t 1 * 24 + 1 * (x 1).val = (x 1).val; rw [e1]; omega

/-- One entry, over variables: if the first block's row p is row n of h and the second block is W, the payload at
    (p, q) is the projection at (n, q). -/
theorem point1 (x0 : Vec Ideal S4000x256 .f32) (x1 : Vec Ideal S256x24 .f32) (h : Arr 100000 256) (W : Arr 256 24)
    (p : Fin 4000) (q : Fin 24) (i : S100000x24.Idx) (n : Fin 100000) (hi : i = ix2 n q)
    (h0 : ∀ k : Fin 256, x0 (ix2 p k) = h (ix2 n k)) (h1 : ∀ k : Fin 256, x1 (ix2 k q) = W (ix2 k q)) :
    k1_pay1 (F := Ideal) x0 x1 (ix2 p q) = arr2 (proj h W) i := by
  subst hi
  rw [pay1_apply, arr2_apply]
  unfold proj
  exact Finset.sum_congr rfl fun k _ => by rw [h0 k, h1 k]

/-- What point t writes back is block t of the projection of the arrays the region finds. -/
theorem flushed1_eq (c : Dev nD) (t : Fin cfg1.N) :
    (dat1 (F := Ideal) V c).flushed 2 t = ((cfg1.win 2).blk t).view.read (Elt Ideal)
      (arr2 (proj (V c (Pipeline.arrRef spec1 0)) (V c (Pipeline.arrRef spec1 1)))) := by
  show (cfg1.win 2).cut (grid1.coords t) ((dat1 V c).after 2 t) = _
  rw [after1_2]
  unfold out1_2
  rw [View.canon_unit_zero zero_off1]
  simp only [View.ld_unit_zero (S := S4000x256) zero_off1, View.ld_unit_zero (S := S256x24) zero_off1]
  obtain ⟨-, -, -, -, e0, e1⟩ := idx_facts1 t
  have ht : t.val < 25 := by have h := t.isLt; have hN : cfg1.N = 25 := N_1; omega
  funext j
  obtain ⟨p, q, rfl⟩ : ∃ (p : Fin 4000) (q : Fin 24), j = ix2 p q := ⟨j 0, j 1, eq_ix2 j⟩
  show k1_pay1 (F := Ideal) (iblk1 V c 0 t) (iblk1 V c 1 t) (ix2 p q)
    = arr2 (proj (V c (Pipeline.arrRef spec1 0)) (V c (Pipeline.arrRef spec1 1))) (((cfg1.win 2).blk t).view.emb (ix2 p q))
  have hp : p.val < 4000 := p.isLt
  refine point1 (iblk1 V c 0 t) (iblk1 V c 1 t) (V c (Pipeline.arrRef spec1 0)) (V c (Pipeline.arrRef spec1 1)) p q
    (((cfg1.win 2).blk t).view.emb (ix2 p q)) ⟨4000 * t.val + p.val, by omega⟩ ?_ (fun k => ?_) (fun k => ?_)
  · funext a
    apply Fin.ext
    match a with
    | ⟨0, _⟩ => show win1_2.index t 0 * 4000 + 1 * p.val = 4000 * t.val + p.val; rw [e0]; omega
    | ⟨1, _⟩ => show win1_2.index t 1 * 24 + 1 * q.val = q.val; rw [e1]; omega
  · exact iblk1_0_apply V c t (ix2 p k) (ix2 ⟨4000 * t.val + p.val, by omega⟩ k) rfl rfl
  · exact iblk1_1_apply V c t (ix2 k q)

/-- An index is in point t's block iff each coordinate is in the block's range on its axis. -/
theorem mem_blk1 (t : Fin cfg1.N) (i : S100000x24.Idx) :
    i ∈ ((cfg1.win 2).blk t).view.set ↔ ∀ a : Fin 2, win1_2.index t a * S4000x24.size a ≤ (i a).val ∧ (i a).val < win1_2.index t a * S4000x24.size a + S4000x24.size a := by
  show i ∈ ((View.whole main_v15).slice (win1_2.rect t)).set ↔ _
  rw [View.set_slice_whole, Rect.mem_set_unit]
  exact Iff.rfl

/-- Every row n is in the block of point n / 4000, which writes back. -/
theorem cover1 (i : S100000x24.Idx) :
    ∃ t : Fin cfg1.N, (cfg1.win 2).flush t = true ∧ i ∈ ((cfg1.win 2).blk t).view.set := by
  have hi0 : (i 0).val < 100000 := idx2_lt0 i
  have hi1 : (i 1).val < 24 := idx2_lt1 i
  have hN : cfg1.N = 25 := N_1
  have ht : (i 0).val / 4000 < cfg1.N := by rw [hN]; omega
  obtain ⟨-, -, -, -, e0, e1⟩ := idx_facts1 ⟨(i 0).val / 4000, ht⟩
  refine ⟨⟨(i 0).val / 4000, ht⟩, flush1_2 _, ?_⟩
  rw [mem_blk1]
  intro a
  match a with
  | ⟨0, _⟩ =>
    show win1_2.index ⟨(i 0).val / 4000, ht⟩ 0 * 4000 ≤ (i 0).val ∧ (i 0).val < win1_2.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win1_2.index ⟨(i 0).val / 4000, ht⟩ 1 * 24 ≤ (i 1).val ∧ (i 1).val < win1_2.index ⟨(i 0).val / 4000, ht⟩ 1 * 24 + 24
    rw [e1]; omega

/-- REGION 1: its output array after the region is the projection of the arrays the region finds. -/
theorem final1 (c : Dev nD) : ((Gen.dat1 (F := Ideal) V c).arrAt 2 cfg1.N : Arr 100000 24)
    = arr2 (proj (V c (Pipeline.arrRef spec1 0)) (V c (Pipeline.arrRef spec1 1))) :=
  (dat1 (F := Ideal) V c).arrAt_eq_of_cover 2 _ (fun t _ => flushed1_eq V c t) cover1

end Cert.KernelIdeal.RegionValue

end
-- ==== Proof.Region2.lean ====
/-
  The last region of the network: the row-wise log-softmax of the scores.

  The region finds three arrays: y : [100000, 24] (the projected features), a : [100000, 24] (their neighbourhood
  sums) and the bias b2 : [24]. It visits the rows in twenty-five blocks of 4000. On a block it forms the scores
  s = (y + a) + b2 (the bias repeated along the rows), takes each row's maximum m (from −∞) and the row sum z of
  exp (s − m), and writes (s − m) − log z. Below: the two layout steps the body uses that keep a reduced axis as a
  unit column; a row's maximum and sum read as a fold and a sum over the 24 columns; the body's result at (p, q) as the
  log-softmax of row p's scores at q; a block of the result as that function of the arrays' rows 4000 t + p; the blocks
  cover the array; so the array the region leaves is, at (n, j), the log-softmax of row n's scores at j.
-/
import proofs.«179152_j84645215470228_2_alg».proof.Proof.Gen.KernelIdeal.Frame
import proofs.«179152_j84645215470228_2_alg».proof.Proof.GinSpec
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Cert.Gin
open Idealize.ShloMosaic.TcCoe Idealize.SL.Sem
open Idealize.ShloMosaic.Pipeline (Dat)

namespace LogSoftmax

/-! ## A reduced axis kept as a unit column -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's maximum and a row's sum -/

/-- The index a reduction over the columns inserts: row `p`, column `k`. -/
theorem lift_row (p : Fin 4000) (k : Fin 24) :
    (reduces_S4000x24_S4000).lift (ix1 p) k = ix2 p k := by
  funext a
  match a with
  | ⟨0, _⟩ => rfl
  | ⟨1, _⟩ => rfl

/-- A row's maximum, as the reduction over the columns computes it from −∞. -/
theorem rowMax_read (src : FVec Ideal S4000x24 .f32) (p : Fin 4000) :
    multiReduction (F := Ideal) .maximumf [1] S4000 src 0xFF800000#32 reduces_S4000x24_S4000 (.inl rfl) rfl (ix1 p)
      = rowMax (fun k => src (ix2 p k)) := by
  refine (Ideal.multiReduction_maximumf_single src 0xFF800000#32 reduces_S4000x24_S4000 (.inl rfl) rfl (ix1 p)).trans ?_
  unfold rowMax
  show (Finset.univ : Finset (Fin 24)).fold max ninf32 (src ∘ (reduces_S4000x24_S4000).lift (ix1 p)) = _
  congr 1
  funext k
  exact congrArg src (lift_row p k)

/-- A row's sum, as the reduction over the columns computes it from zero. -/
theorem rowSum_read (src : FVec Ideal S4000x24 .f32) (p : Fin 4000) :
    multiReduction (F := Ideal) .add [1] S4000 src 0x00000000#32 reduces_S4000x24_S4000 (.inl rfl) rfl (ix1 p)
      = ∑ k : Fin 24, src (ix2 p k) := by
  refine (Ideal.multiReduction_add_single src 0x00000000#32 reduces_S4000x24_S4000 (.inl rfl) rfl (ix1 p)).trans ?_
  show ∑ k : Fin 24, src ((reduces_S4000x24_S4000).lift (ix1 p) k) = _
  exact Finset.sum_congr rfl fun k _ => congrArg src (lift_row p k)

/-! ## The body's result at an index -/

/-- The exponential of a block acts entry by entry. -/
theorem exp_apply' (v : FVec Ideal S4000x24 .f32) (i : S4000x24.Idx) : exp v i = Ideal.exp (v i) := rfl
/-- The logarithm of a column acts entry by entry. -/
theorem log_apply' (v : FVec Ideal S4000x1 .f32) (i : S4000x1.Idx) : log v i = Ideal.log (v i) := rfl

/-- The row-wise log-softmax of a block of scores, as the body computes it, at row `p` and column `q`. -/
theorem lsmBlock_apply (s : FVec Ideal S4000x24 .f32) (p : Fin 4000) (q : Fin 24) :
    subf
      (subf s
        (broadcastTo S4000x24
          (shapeCast S4000x1
            (multiReduction (F := Ideal) .maximumf [1] S4000 s 0xFF800000#32 reduces_S4000x24_S4000 (.inl rfl) rfl)
            shapeCasts_S4000_S4000x1)
          broadcasts_S4000x1_S4000x24))
      (broadcastTo S4000x24
        (log
          (shapeCast S4000x1
            (multiReduction (F := Ideal) .add [1] S4000
              (exp
                (subf s
                  (broadcastTo S4000x24
                    (shapeCast S4000x1
                      (multiReduction (F := Ideal) .maximumf [1] S4000 s 0xFF800000#32 reduces_S4000x24_S4000 (.inl rfl) rfl)
                      shapeCasts_S4000_S4000x1)
                    broadcasts_S4000x1_S4000x24)))
              0x00000000#32 reduces_S4000x24_S4000 (.inl rfl) rfl)
            shapeCasts_S4000_S4000x1))
        broadcasts_S4000x1_S4000x24)
      (ix2 p q)
    = lsm (fun j => s (ix2 p j)) q := by
  have hm : ∀ j : Fin 24, (broadcastTo S4000x24
          (shapeCast S4000x1
            (multiReduction (F := Ideal) .maximumf [1] S4000 s 0xFF800000#32 reduces_S4000x24_S4000 (.inl rfl) rfl)
            shapeCasts_S4000_S4000x1)
          broadcasts_S4000x1_S4000x24 : FVec Ideal S4000x24 .f32) (ix2 p j) = rowMax (fun k => s (ix2 p k)) := fun j =>
    (broadcastTo_a1_ab_apply _ broadcasts_S4000x1_S4000x24 p j).trans
      ((shapeCast_a_a1_apply _ shapeCasts_S4000_S4000x1 p 0).trans (rowMax_read s p))
  rw [subf_apply, subf_apply, hm q, broadcastTo_a1_ab_apply, log_apply', shapeCast_a_a1_apply, rowSum_read]
  unfold lsm
  refine congrArg (fun z => s (ix2 p q) - rowMax (fun k => s (ix2 p k)) - Ideal.log z) (Finset.sum_congr rfl fun k _ => ?_)
  rw [exp_apply', subf_apply, hm k]

/-- The scores of a block at row `p`, column `j`: the two blocks' entries added, then the bias at `j`. -/
theorem score_apply (v0 v2 : Vec Ideal S4000x24 .f32) (v5 : Vec Ideal S24 .f32) (p : Fin 4000) (j : Fin 24) :
    (addf (addf (shapeCast S4000x24 v0 shapeCasts_S4000x24_S4000x24) (shapeCast S4000x24 v2 shapeCasts_S4000x24_S4000x24))
      (broadcastTo S4000x24 (shapeCast S1x24 v5 shapeCasts_S24_S1x24) broadcasts_S1x24_S4000x24) : FVec Ideal S4000x24 .f32) (ix2 p j)
    = (v0 (ix2 p j) + v2 (ix2 p j)) + v5 (ix1 j) := by
  rw [addf_apply, addf_apply, shapeCast_self, shapeCast_self, broadcastTo_1b_ab_apply, shapeCast_a_1a_apply]

/-- The body's result at `(p, q)`: the log-softmax of row `p`'s scores at column `q`. -/
theorem k2_pay1_apply (v0 v2 : Vec Ideal S4000x24 .f32) (v5 : Vec Ideal S24 .f32) (p : Fin 4000) (q : Fin 24) :
    k2_pay1 (F := Ideal) v0 v2 v5 (ix2 p q) = lsm (fun j => (v0 (ix2 p j) + v2 (ix2 p j)) + v5 (ix1 j)) q := by
  unfold k2_pay1
  dsimp only
  refine (lsmBlock_apply _ p q).trans ?_
  exact congrArg (fun f => lsm f q) (funext fun j => score_apply v0 v2 v5 p j)

/-! ## From the blocks to the array -/

/-- The zero offsets of a whole-buffer access, as a constant function. -/
theorem hz2 : (![0, 0] : Fin 2 → Nat) = fun _ => 0 := funext fun a => by fin_cases a <;> rfl
theorem hz1 : (![0] : Fin 1 → Nat) = fun _ => 0 := funext fun a => by fin_cases a <;> rfl

/-- The body's result at an index of a block whose rows are rows of the arrays: the log-softmax of that row's scores. -/
theorem point_eq (x0 x1 : Vec Ideal S4000x24 .f32) (x2 : Vec Ideal S24 .f32) (A0 A1 : Arr 100000 24) (A2 : Vc 24)
    (y : S4000x24.Idx) (i : S100000x24.Idx) (hq : (i 1).val = (y 1).val)
    (h0 : ∀ j : Fin 24, x0 (ix2 (y 0) j) = A0 (ix2 (i 0) j))
    (h1 : ∀ j : Fin 24, x1 (ix2 (y 0) j) = A1 (ix2 (i 0) j))
    (h2 : ∀ j : Fin 24, x2 (ix1 j) = A2 (ix1 j)) :
    k2_pay1 (F := Ideal) x0 x1 x2 y = arr2 (fun n j => lsm (scoreK A0 A1 A2 n) j) i := by
  obtain ⟨p, q, rfl⟩ : ∃ (p : Fin 4000) (q : Fin 24), y = ix2 p q := ⟨y 0, y 1, eq_ix2 y⟩
  obtain ⟨n, r, rfl⟩ : ∃ (n : Fin 100000) (r : Fin 24), i = ix2 n r := ⟨i 0, i 1, eq_ix2 i⟩
  obtain rfl : r = q := Fin.ext hq
  have h0' : ∀ j : Fin 24, x0 (ix2 p j) = A0 (ix2 n j) := h0
  have h1' : ∀ j : Fin 24, x1 (ix2 p j) = A1 (ix2 n j) := h1
  rw [k2_pay1_apply, arr2_apply]
  refine congrArg (fun f => lsm f r) (funext fun j => ?_)
  unfold scoreK
  rw [h0' j, h1' j, h2 j]

/-- The printed index maps over the grid: the row-blocked windows move with the point, the bias window stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section Region
variable (V : (c : Dev nD) → (b : Ref sig .tc) → Buf (Elt Ideal) ((c : Thread nD τ).loc b))

/-- The region's result as one function of the arrays it finds. -/
abbrev G (c : Dev nD) : Arr 100000 24 :=
  arr2 (fun n j => lsm (scoreK (V c (Pipeline.arrRef spec2 0)) (V c (Pipeline.arrRef spec2 1)) (V c (Pipeline.arrRef spec2 2)) n) j)

/-- What point `t` writes back is block `t` of the log-softmax of the scores. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz2]
  simp only [View.ld_unit_zero (S := S4000x24) hz2, View.ld_unit_zero (S := S24) hz1]
  obtain ⟨e00, e01, e10, e11, e20, e30, e31⟩ := idx_facts t
  funext j
  show k2_pay1 (F := Ideal) (iblk2 V c 0 t) (iblk2 V c 1 t) (iblk2 V c 2 t) j = G V c (((cfg2.win 3).blk t).view.emb j)
  refine point_eq (iblk2 V c 0 t) (iblk2 V c 1 t) (iblk2 V c 2 t) (V c (Pipeline.arrRef spec2 0)) (V c (Pipeline.arrRef spec2 1))
    (V c (Pipeline.arrRef spec2 2)) j (((cfg2.win 3).blk t).view.emb j) ?_ (fun k => ?_) (fun k => ?_) (fun k => ?_)
  · show win2_3.index t (1 : Fin 2) * 24 + 1 * (j 1).val = (j 1).val
    omega
  · show V c (Pipeline.arrRef spec2 0) (((cfg2.win 0).blk t).view.emb (ix2 (j 0) k)) = _
    refine congrArg (V c (Pipeline.arrRef spec2 0)) (funext fun a => Fin.ext ?_)
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 24 + 1 * k.val = k.val; omega
  · show V c (Pipeline.arrRef spec2 1) (((cfg2.win 1).blk t).view.emb (ix2 (j 0) k)) = _
    refine congrArg (V c (Pipeline.arrRef spec2 1)) (funext fun a => Fin.ext ?_)
    match a with
    | ⟨0, _⟩ => show win2_1.index t (0 : Fin 2) * 4000 + 1 * (j 0).val = win2_3.index t (0 : Fin 2) * 4000 + 1 * (j 0).val; omega
    | ⟨1, _⟩ => show win2_1.index t (1 : Fin 2) * 24 + 1 * k.val = k.val; omega
  · show V c (Pipeline.arrRef spec2 2) (((cfg2.win 2).blk t).view.emb (ix1 k)) = _
    refine congrArg (V c (Pipeline.arrRef spec2 2)) (funext fun a => Fin.ext ?_)
    match a with
    | ⟨0, _⟩ => show win2_2.index t (0 : Fin 1) * 24 + 1 * k.val = k.val; omega

/-- An index of the array is in point `t`'s block iff each coordinate is in the block's range on its axis. -/
theorem mem_blk (t : Fin cfg2.N) (i : S100000x24.Idx) :
    i ∈ ((cfg2.win 3).blk t).view.set ↔ ∀ a : Fin 2, win2_3.index t a * S4000x24.size a ≤ (i a).val
      ∧ (i a).val < win2_3.index t a * S4000x24.size a + S4000x24.size a := by
  show i ∈ ((View.whole main_v26).slice (win2_3.rect t)).set ↔ _
  rw [View.set_slice_whole, Rect.mem_set_unit]
  exact Iff.rfl

/-- Row `r` of the array lies in the block of point `r / 4000`: the twenty-five blocks cover the array. -/
theorem cover (i : S100000x24.Idx) : ∃ t : Fin cfg2.N, (cfg2.win 3).flush t = true ∧ i ∈ ((cfg2.win 3).blk t).view.set := by
  have hi0 : (i 0).val < 100000 := (i 0).isLt
  have hi1 : (i 1).val < 24 := (i 1).isLt
  have hN : cfg2.N = 25 := N_2
  have ht : (i 0).val / 4000 < cfg2.N := by rw [hN]; omega
  obtain ⟨-, -, -, -, -, e30, e31⟩ := idx_facts ⟨(i 0).val / 4000, ht⟩
  refine ⟨⟨(i 0).val / 4000, ht⟩, flush2_3 _, ?_⟩
  rw [mem_blk]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e30]
    show (i 0).val / 4000 * 4000 ≤ (i 0).val ∧ (i 0).val < (i 0).val / 4000 * 4000 + 4000
    omega
  | ⟨1, _⟩ =>
    show win2_3.index ⟨(i 0).val / 4000, ht⟩ (1 : Fin 2) * 24 ≤ (i 1).val
      ∧ (i 1).val < win2_3.index ⟨(i 0).val / 4000, ht⟩ (1 : Fin 2) * 24 + 24
    rw [e31]
    omega

end Region

end LogSoftmax

section Region
variable (V : (c : Dev nD) → (b : Ref sig .tc) → Buf (Elt Ideal) ((c : Thread nD τ).loc b))

/-- The array the region leaves: at row `n`, column `j`, the log-softmax of row `n`'s scores. -/
theorem final2 (c : Dev nD) : ((Gen.dat2 (F := Ideal) V c).arrAt 3 cfg2.N : Arr 100000 24) = arr2 (fun n j => lsm (scoreK (V c (Pipeline.arrRef spec2 0)) (V c (Pipeline.arrRef spec2 1)) (V c (Pipeline.arrRef spec2 2)) n) j) :=
  (dat2 (F := Ideal) V c).arrAt_eq_of_cover 3 (LogSoftmax.G V c) (fun t _ => LogSoftmax.flushed_eq V c t) LogSoftmax.cover

end Region

end Cert.KernelIdeal.RegionValue

end
-- ==== Proof.RefValue.lean ====
/-
  The reference program's result, as the specification's functions of its six arguments.

  The reference computes, on the host, one operation at a time: the source and destination row of every edge (a
  negative row number wrapped by the table's height); the neighbourhood sum of x as a gather of the source rows
  followed by an accumulating scatter into the destination rows of a zero array; layer one,
  max((1·x + agg x)·W1 + b1, 0); the same gather and scatter of the hidden array; the scores
  (1·h + agg h)·W2 + b2; and the row-wise log-softmax s − m − log(0 + Σ exp(s − m)), with
  m = max(−∞, max over the row from −∞). Each stage below is read at an index and identified with the
  specification's function of the same name; the row maximum needs only that a fold of max from −∞ is at least −∞.
-/
import proofs.«179152_j84645215470228_2_alg».proof.Proof.RefRead
import proofs.«179152_j84645215470228_2_alg».proof.Proof.GinSpec

noncomputable section

namespace Cert.ReferenceIdeal.RefValue

open Cert.ReferenceIdeal Cert.ReferenceIdeal.Read Cert.Gin Idealize.ShloMosaic Idealize.ShloMosaic.ValueIdx

/-! ## The neighbourhood sums -/

/-- The array the first scatter accumulates into is zero everywhere. -/
theorem zeros128 : Read.val_main_v11 (F := Ideal) = fun _ => zero32 := by
  funext i; rw [Read.val_main_v11_apply, Read.val_main_cst_apply]; rfl

/-- The array the second scatter accumulates into is zero everywhere. -/
theorem zeros256 : Read.val_main_v29 (F := Ideal) = fun _ => zero32 := by
  funext i; rw [Read.val_main_v29_apply, Read.val_main_cst_4_apply]; rfl

/-- The source rows computed for the second layer are the first layer's: the same wrap of the same edge row. -/
theorem src_again (x1 : (⟨S2x600000, .i32⟩ : BufTy).Contents (Elt Ideal)) :
    Read.val_main_v27 (F := Ideal) x1 = Read.val_main_v9 (F := Ideal) x1 := rfl

/-- The destination rows of the second layer are the first layer's. -/
theorem dst_again (x1 : (⟨S2x600000, .i32⟩ : BufTy).Contents (Elt Ideal)) :
    Read.val_main_v30 (F := Ideal) x1 = Read.val_main_v12 (F := Ideal) x1 := rfl

/-- Gathering the source rows of x and scatter-adding them into the destination rows of the zero array is the
    neighbourhood sum of x: the program's dimension numbers are those of a gather and a scatter of whole rows. -/
theorem agg128_eq (x0 : (⟨S100000x128, .f32⟩ : BufTy).Contents (Elt Ideal)) (x1 : (⟨S2x600000, .i32⟩ : BufTy).Contents (Elt Ideal)) :
    Read.val_main_v13 (F := Ideal) x0 x1 = agg 128 Gen.gather_S100000x128_S600000x1_S600000x128_1_0_n_n_0_1_1128_wf Gen.scatter_S100000x128_S600000x1_S600000x128_1_0_0_1_wf x0 (Read.val_main_v9 (F := Ideal) x1) (Read.val_main_v12 (F := Ideal) x1) := by
  unfold Read.val_main_v13 Read.val_main_v10 agg Host.scatterAdd
  rw [Ideal.hostScatterAdd_def, zeros128]
  rfl

/-- The same for the hidden array, with 256 columns. -/
theorem agg256_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal)) :
    Read.val_main_v31 (F := Ideal) x0 x1 x2 x3 = agg 256 Gen.gather_S100000x256_S600000x1_S600000x256_1_0_n_n_0_1_1256_wf Gen.scatter_S100000x256_S600000x1_S600000x256_1_0_0_1_wf (Read.val_main_v21 (F := Ideal) x0 x1 x2 x3) (Read.val_main_v9 (F := Ideal) x1) (Read.val_main_v12 (F := Ideal) x1) := by
  unfold Read.val_main_v31 Read.val_main_v28 agg Host.scatterAdd
  generalize Read.val_main_v21 (F := Ideal) x0 x1 x2 x3 = H
  rw [Ideal.hostScatterAdd_def, zeros256, src_again, dst_again]
  rfl

/-! ## Layer one -/

/-- Layer one at (n, c): max(Σ_k (1·x[n,k] + (agg x)[n,k])·W1[k,c] + b1[c], 0); 1·x is x·1. -/
theorem hidden_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal)) :
    Read.val_main_v21 (F := Ideal) x0 x1 x2 x3 = arr2 (Gin.hidden x0 (Read.val_main_v13 (F := Ideal) x0 x1) x2 x3) := by
  funext i
  obtain ⟨n, c, rfl⟩ : ∃ (n : Fin 100000) (c : Fin 256), i = ix2 n c := ⟨i 0, i 1, eq_ix2 i⟩
  rw [arr2_apply]
  unfold Gin.hidden
  rw [Read.val_main_v21_apply, Read.val_main_v20_apply, Read.val_main_v17_apply, Read.val_main_v19_apply, Read.val_main_v18_apply,
    Read.val_main_call0_v0_apply, Read.val_main_call0_cst_apply]
  have e1 : ∀ k : Fin 128, Read.lidx_main_v17 (ix2 n c) k = ix2 n k := fun k => funext fun a => Fin.ext (by match a with | ⟨0, _⟩ => rfl | ⟨1, _⟩ => rfl)
  have e2 : ∀ k : Fin 128, Read.ridx_main_v17 (ix2 n c) k = ix2 k c := fun k => funext fun a => Fin.ext (by match a with | ⟨0, _⟩ => rfl | ⟨1, _⟩ => rfl)
  have e3 : Read.idx_main_v18 (Read.idx_main_v19 (ix2 n c)) = ix1 c := funext fun a => Fin.ext (by match a with | ⟨0, _⟩ => rfl)
  simp only [e1, e2, e3, Read.val_main_v16_apply, Read.val_main_v15_apply, Read.val_main_v14_apply, Read.val_main_cst_1_apply,
    Ideal.maximumf_def, Ideal.addf_def, Ideal.mulf_def, Ideal.ofBits_def]
  generalize Read.val_main_v13 (F := Ideal) x0 x1 = A
  refine congrArg (fun t => max (t + x3 (ix1 c)) zero32) (Finset.sum_congr rfl fun k _ => ?_)
  exact congrArg (fun t => (t + A (ix2 n k)) * x2 (ix2 k c)) (mul_comm one32 (x0 (ix2 n k)))

/-! ## The scores -/

/-- The scores at (n, j): Σ_k (1·h[n,k] + (agg h)[n,k])·W2[k,j] + b2[j]. -/
theorem score_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal)) (n : Fin 100000) (j : Fin 24) :
    Read.val_main_v38 (F := Ideal) x0 x1 x2 x3 x4 x5 (ix2 n j) = scoreR (Read.val_main_v21 (F := Ideal) x0 x1 x2 x3) (Read.val_main_v31 (F := Ideal) x0 x1 x2 x3) x4 x5 n j := by
  unfold scoreR
  rw [Read.val_main_v38_apply, Read.val_main_v35_apply, Read.val_main_v37_apply, Read.val_main_v36_apply]
  have e1 : ∀ k : Fin 256, Read.lidx_main_v35 (ix2 n j) k = ix2 n k := fun k => funext fun a => Fin.ext (by match a with | ⟨0, _⟩ => rfl | ⟨1, _⟩ => rfl)
  have e2 : ∀ k : Fin 256, Read.ridx_main_v35 (ix2 n j) k = ix2 k j := fun k => funext fun a => Fin.ext (by match a with | ⟨0, _⟩ => rfl | ⟨1, _⟩ => rfl)
  have e3 : Read.idx_main_v36 (Read.idx_main_v37 (ix2 n j)) = ix1 j := funext fun a => Fin.ext (by match a with | ⟨0, _⟩ => rfl)
  simp only [e1, e2, e3, Read.val_main_v34_apply, Read.val_main_v33_apply, Read.val_main_v32_apply, Read.val_main_cst_5_apply,
    Ideal.addf_def, Ideal.mulf_def, Ideal.ofBits_def]

/-! ## The log-softmax -/

/-- The row maximum the reference subtracts, max(−∞, the maximum over the row from −∞), is the row's maximum from −∞:
    a fold of max from −∞ is at least −∞. -/
theorem rowmax_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal)) (n : Fin 100000) :
    Read.val_main_call1_v2 (F := Ideal) x0 x1 x2 x3 x4 x5 (ix1 n) = rowMax (fun q => Read.val_main_v38 (F := Ideal) x0 x1 x2 x3 x4 x5 (ix2 n q)) := by
  rw [Read.val_main_call1_v2_apply, Read.val_main_call1_v1_apply, Read.val_main_call1_cst_0_apply]
  unfold Read.val_main_call1_v0 rowMax
  generalize Read.val_main_v38 (F := Ideal) x0 x1 x2 x3 x4 x5 = S
  have hR : S100000x24.Reduces [1] S100000 := by decide
  have h1 := Host.reduce_eq_fold_single (FloatOps.maximumf (F := Ideal) (φ := .f32)) S (Read.val_main_call1_cst (F := Ideal))
    Gen.reducesTo_S100000x24_S100000_d1 hR Gen.h_S_ (ix1 n)
  rw [h1]
  have hf : (S ∘ hR.lift (ix1 n)) = fun q : Fin 24 => S (ix2 n q) := funext fun q => congrArg S (funext fun a => Fin.ext (by match a with | ⟨0, _⟩ => rfl | ⟨1, _⟩ => rfl))
  show max ninf32 (Finset.fold max ninf32 (S ∘ hR.lift (ix1 n)) (Finset.univ : Finset (Fin 24))) = _
  rw [hf]
  exact max_eq_right ((Finset.le_fold_max _).2 (Or.inl le_rfl))

/-- The shifted scores at (n, q): the score minus its row's maximum. -/
theorem shifted_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal)) (n : Fin 100000) (q : Fin 24) :
    Read.val_main_call1_v5 (F := Ideal) x0 x1 x2 x3 x4 x5 (ix2 n q)
      = Read.val_main_v38 (F := Ideal) x0 x1 x2 x3 x4 x5 (ix2 n q) - rowMax (fun q => Read.val_main_v38 (F := Ideal) x0 x1 x2 x3 x4 x5 (ix2 n q)) := by
  rw [Read.val_main_call1_v5_apply, Read.val_main_call1_v4_apply, Read.val_main_call1_v3_apply]
  have e : Read.idx_main_call1_v3 (Read.idx_main_call1_v4 (ix2 n q)) = ix1 n := funext fun a => Fin.ext (by match a with | ⟨0, _⟩ => rfl)
  rw [e, rowmax_eq]
  rfl

/-- The result is the row-wise log-softmax of the scores. -/
theorem lsm_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal)) :
    Read.val_main_v39 (F := Ideal) x0 x1 x2 x3 x4 x5 = arr2 (fun n j => lsm (fun q => Read.val_main_v38 (F := Ideal) x0 x1 x2 x3 x4 x5 (ix2 n q)) j) := by
  funext i
  obtain ⟨n, j, rfl⟩ : ∃ (n : Fin 100000) (j : Fin 24), i = ix2 n j := ⟨i 0, i 1, eq_ix2 i⟩
  rw [arr2_apply]
  unfold lsm
  rw [Read.val_main_v39_apply, Read.val_main_call1_v10_apply, Read.val_main_call1_v9_apply, Read.val_main_call1_v8_apply,
    Read.val_main_call1_v7_apply, Read.val_main_call1_cst_1_apply]
  have e7 : ∀ k : Fin 24, Read.idx_main_call1_v7 (Read.idx_main_call1_v8 (Read.idx_main_call1_v10 (ix2 n j))) k = ix2 n k :=
    fun k => funext fun a => Fin.ext (by match a with | ⟨0, _⟩ => rfl | ⟨1, _⟩ => rfl)
  simp only [e7, Read.val_main_call1_v6_apply, shifted_eq, Ideal.subf_def, Ideal.hostUnary_log_def, Ideal.hostUnary_exp_def,
    Ideal.ofBits_def, Ideal.ofBits_zero_f32, zero_add]

/-! ## The reference's value -/

/-- The reference's result: the log-softmax of the scores (1·h + agg h)·W2 + b2 of the hidden array
    h = max((x·1 + agg x)·W1 + b1, 0), the neighbourhood sums taken along the program's own edge rows. -/
theorem ref_eq (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal)) :
    Read.val_main_v39 (F := Ideal) x0 x1 x2 x3 x4 x5
      = arr2 (fun n j => lsm (scoreR
          (arr2 (Gin.hidden x0 (agg 128 Gen.gather_S100000x128_S600000x1_S600000x128_1_0_n_n_0_1_1128_wf Gen.scatter_S100000x128_S600000x1_S600000x128_1_0_0_1_wf x0 (Read.val_main_v9 (F := Ideal) x1) (Read.val_main_v12 (F := Ideal) x1)) x2 x3))
          (agg 256 Gen.gather_S100000x256_S600000x1_S600000x256_1_0_n_n_0_1_1256_wf Gen.scatter_S100000x256_S600000x1_S600000x256_1_0_0_1_wf
            (arr2 (Gin.hidden x0 (agg 128 Gen.gather_S100000x128_S600000x1_S600000x128_1_0_n_n_0_1_1128_wf Gen.scatter_S100000x128_S600000x1_S600000x128_1_0_0_1_wf x0 (Read.val_main_v9 (F := Ideal) x1) (Read.val_main_v12 (F := Ideal) x1)) x2 x3))
            (Read.val_main_v9 (F := Ideal) x1) (Read.val_main_v12 (F := Ideal) x1))
          x4 x5 n) j) := by
  rw [lsm_eq]
  have hS : ∀ n : Fin 100000, (fun q => Read.val_main_v38 (F := Ideal) x0 x1 x2 x3 x4 x5 (ix2 n q)) = scoreR (Read.val_main_v21 (F := Ideal) x0 x1 x2 x3) (Read.val_main_v31 (F := Ideal) x0 x1 x2 x3) x4 x5 n :=
    fun n => funext fun q => score_eq x0 x1 x2 x3 x4 x5 n q
  simp only [hS]
  rw [agg256_eq, hidden_eq, agg128_eq]

end Cert.ReferenceIdeal.RefValue

end
-- ==== Proof.lean ====
/-
  The proof of the certificate's claim. Both idealized programs compute, on the extended reals, the row-wise
  log-softmax of the second layer's scores of a two-layer graph network. The kernel projects the hidden layer by W2
  and then sums over each node's neighbourhood; the reference sums over the neighbourhood first and projects after.
  For finite inputs every entry of the hidden layer is a real number, and a neighbourhood sum of reals commutes with
  a product on the right, so the two score arrays agree entry by entry; the log-softmax of equal rows is equal.

  The three frames: the kernel's two are the generated frame certificates; the reference's is its run with the
  result dropped. The kernel's idealization rewrote no operation, so the preservation claim is trivial. The
  algebraic claim pairs the kernel's run with its result named (the three regions' outputs as whole-array functions
  of what each region finds, the host operations between them read as functions of their operands) with the
  reference's run read one operation at a time.
-/
import proofs.«179152_j84645215470228_2_alg».proof.Defs
import proofs.«179152_j84645215470228_2_alg».proof.Proof.Gen.Kernel
import proofs.«179152_j84645215470228_2_alg».proof.Proof.Gen.Kernel.Skeleton
import proofs.«179152_j84645215470228_2_alg».proof.Proof.Gen.Kernel.Launch
import proofs.«179152_j84645215470228_2_alg».proof.Proof.Gen.Kernel.Points
import proofs.«179152_j84645215470228_2_alg».proof.Proof.Gen.Kernel.Frame
import proofs.«179152_j84645215470228_2_alg».proof.Proof.Gen.KernelIdeal
import proofs.«179152_j84645215470228_2_alg».proof.Proof.Gen.KernelIdeal.Skeleton
import proofs.«179152_j84645215470228_2_alg».proof.Proof.Gen.KernelIdeal.Launch
import proofs.«179152_j84645215470228_2_alg».proof.Proof.Gen.KernelIdeal.Points
import proofs.«179152_j84645215470228_2_alg».proof.Proof.Gen.KernelIdeal.Frame
import proofs.«179152_j84645215470228_2_alg».proof.Proof.Gen.ReferenceIdeal
import proofs.«179152_j84645215470228_2_alg».proof.Proof.Gen.Pre_finite_inputs
import proofs.«179152_j84645215470228_2_alg».proof.Proof.RefRead
import proofs.«179152_j84645215470228_2_alg».proof.Proof.KRun
import proofs.«179152_j84645215470228_2_alg».proof.Proof.KValue
import proofs.«179152_j84645215470228_2_alg».proof.Proof.Finite
import proofs.«179152_j84645215470228_2_alg».proof.Proof.GinLaw
import proofs.«179152_j84645215470228_2_alg».proof.Proof.GinBridge
import proofs.«179152_j84645215470228_2_alg».proof.Proof.Region0
import proofs.«179152_j84645215470228_2_alg».proof.Proof.Region1
import proofs.«179152_j84645215470228_2_alg».proof.Proof.Region2
import proofs.«179152_j84645215470228_2_alg».proof.Proof.RefValue
import Idealize.ShloMosaic.Adequacy
import Idealize.ShloMosaic.Init

noncomputable section

namespace Cert.Proof

open Idealize.ShloMosaic Idealize.ShloMosaic.TcCoe Idealize.SL.Sem Cert.Gin
open Cert.KernelIdeal.KValue (outK kvalue)

/-- For real entries the reference's result, as a function of the six arguments, is the kernel's: the reference's
    term is the aggregate-then-project arrangement, which the law of the neighbourhood sum turns into the
    project-then-aggregate one; the two programs' edge-row arrays are the same arrays. -/
theorem ref_is_outK (x : Arr 100000 128) (ei : IVec ⟨2, ![2, 600000]⟩ 32) (W1 : Arr 128 256) (b1 : Vc 256) (W2 : Arr 256 24) (b2 : Vc 24)
    (hx : IsReal x) (hW1 : IsReal W1) (hb1 : IsReal b1) (hW2 : IsReal W2) :
    Cert.ReferenceIdeal.Read.val_main_v39 (F := Ideal) x ei W1 b1 W2 b2 = outK x ei W1 b1 W2 b2 := by
  rw [Cert.ReferenceIdeal.RefValue.ref_eq]
  exact Cert.Gin.out_eq _ _ _ _ _ _ x W1 b1 W2 b2 _ _ hx hW1 hb1 hW2

/-- The idealized kernel's run ends with its result array at outK of the arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v26)
        = outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (kvalue m ρ c (fun V c => Cert.KernelIdeal.RegionValue.final0 V c)
      (fun V c => Cert.KernelIdeal.RegionValue.final1 V c) (fun V c => Cert.KernelIdeal.RegionValue.final2 V c)), (h c).2⟩)
    (Cert.KernelIdeal.KRun.run_main (F := Ideal) m ρ)

theorem frame_p : @Cert.frame_Kernel Cert.Kernel.Gen.facts Cert.Pre_finite_inputs.Gen.facts :=
  fun m ρ _ => Cert.Kernel.Gen.frame m ρ

theorem frame_pi : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run (Cert.ReferenceIdeal.defs (F := Ideal)) _ _).mono (fun _ h c => (h c).2)
    (Cert.ReferenceIdeal.Value.run (F := Ideal) m ρ)

/-- From memories that agree on the arguments and satisfy the precondition, both runs end with the result array at
    outK of the kernel's arguments: the kernel's by its named run, the reference's by its run read back, the
    arguments' agreement, the entries' finiteness and ref_is_outK. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, kernel_run m ρ, ?_⟩
  refine (θ_run (Cert.ReferenceIdeal.defs (F := Ideal)) _ _).mono (fun r h c => ⟨?_, (h c).2⟩)
    (Cert.ReferenceIdeal.Value.run (F := Ideal) m' ρ')
  obtain ⟨a0, a1, a2, a3, a4, a5⟩ := hagree c
  obtain ⟨r0, r2, r3, r4, -⟩ := Cert.Pre_finite_inputs.Finite.real_of_pre _ _ _ _ _ _ (hpre c)
  rw [(h c).1, Cert.ReferenceIdeal.Read.val_main_v39_eq, a0, a1, a2, a3, a4, a5]
  exact ref_is_outK _ _ _ _ _ _ r0 r2 r3 r4

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
